-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x640000 : Shape := ⟨2, ![2, 640000]⟩
abbrev S50000 : Shape := ⟨1, ![50000]⟩
abbrev S640000 : Shape := ⟨1, ![640000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000 : S_.BroadcastsInDim S50000 (![] : Fin 0 → Fin S50000.rank)
  reducesTo_S50000_S_d0 : S50000.ReducesTo [0] S_
  bcast_S_S640000 : S_.BroadcastsInDim S640000 (![] : Fin 0 → Fin S640000.rank)
  reducesTo_S640000_S_d0 : S640000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S128 .f32) (main_arg6 : FVec F S3x128x128 .f32) (main_arg7 : FVec F S3x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S50000x256 .f32) (main_arg1 : IVec S2x640000 32) (main_arg2 : FVec F S50000 .f32) (main_arg3 : FVec F S640000 .f32) (main_arg4 : FVec F S256x128 .f32) (main_arg5 : FVec F S128 .f32) (main_arg6 : FVec F S3x128x128 .f32) (main_arg7 : FVec F S3x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S640000 .f32 := Host.absf main_arg3
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x256 : Shape := ⟨2, ![50000, 256]⟩
abbrev S2x640000 : Shape := ⟨2, ![2, 640000]⟩
abbrev S50000 : Shape := ⟨1, ![50000]⟩
abbrev S640000 : Shape := ⟨1, ![640000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S1x640000 : Shape := ⟨2, ![1, 640000]⟩
abbrev S_ : Shape := ⟨0, ![]⟩
abbrev S640000x1 : Shape := ⟨2, ![640000, 1]⟩
abbrev S1x128 : Shape := ⟨2, ![1, 128]⟩
abbrev S50000x128 : Shape := ⟨2, ![50000, 128]⟩
abbrev S2000x256 : Shape := ⟨2, ![2000, 256]⟩
abbrev S2000x128 : Shape := ⟨2, ![2000, 128]⟩
abbrev S1x128x128 : Shape := ⟨3, ![1, 128, 128]⟩
abbrev S128x128 : Shape := ⟨2, ![128, 128]⟩
abbrev S640000x128 : Shape := ⟨2, ![640000, 128]⟩

abbrev nBuf : Space → Nat
  | .hbm => 206
  | .vmem => 42
  | .smem => 0
  | _ => 0

abbrev hbmTy0_0 (i : Nat) : BufTy := match i % 128 with
  | 0 => ⟨S50000x256, .f32⟩
  | 1 => ⟨S2x640000, .i32⟩
  | 2 => ⟨S50000, .f32⟩
  | 3 => ⟨S640000, .f32⟩
  | 4 => ⟨S256x128, .f32⟩
  | 5 => ⟨S128, .f32⟩
  | 6 => ⟨S3x128x128, .f32⟩
  | 7 => ⟨S3x128, .f32⟩
  | 8 => ⟨S1x640000, .i32⟩
  | 9 => ⟨S640000, .i32⟩
  | 10 => ⟨S1x640000, .i32⟩
  | 11 => ⟨S640000, .i32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000, .f32⟩
  | 21 => ⟨S_, .f32⟩
  | 22 => ⟨S50000, .f32⟩
  | 23 => ⟨S640000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S640000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000, .f32⟩
  | 39 => ⟨S_, .f32⟩
  | 40 => ⟨S50000, .f32⟩
  | 41 => ⟨S50000, .i1⟩
  | 42 => ⟨S_, .f32⟩
  | 43 => ⟨S_, .f32⟩
  | 44 => ⟨S50000, .f32⟩
  | 45 => ⟨S50000, .f32⟩
  | 46 => ⟨S_, .f32⟩
  | 47 => ⟨S50000, .f32⟩
  | 48 => ⟨S50000, .f32⟩
  | 49 => ⟨S50000, .f32⟩
  | 50 => ⟨S_, .f32⟩
  | 51 => ⟨S50000, .f32⟩
  | 52 => ⟨S50000, .i1⟩
  | 53 => ⟨S_, .f32⟩
  | 54 => ⟨S_, .f32⟩
  | 55 => ⟨S50000, .f32⟩
  | 56 => ⟨S50000, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000, .f32⟩
  | 75 => ⟨S640000, .f32⟩
  | 76 => ⟨S1x128, .f32⟩
  | 77 => ⟨S50000x128, .f32⟩
  | 78 => ⟨S640000, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S640000, .f32⟩
  | 88 => ⟨S640000, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S50000x128, .f32⟩
  | 95 => ⟨S_, .i32⟩
  | 96 => ⟨S640000, .i32⟩
  | 97 => ⟨S640000, .i1⟩
  | 98 => ⟨S_, .i32⟩
  | 99 => ⟨S640000, .i32⟩
  | 100 => ⟨S640000, .i32⟩
  | 101 => ⟨S640000, .i32⟩
  | 102 => ⟨S640000x1, .i32⟩
  | 103 => ⟨S640000x128, .f32⟩
  | 104 => ⟨S640000x1, .f32⟩
  | 105 => ⟨S640000x128, .f32⟩
  | 106 => ⟨S640000x128, .f32⟩
  | 107 => ⟨S_, .f32⟩
  | 108 => ⟨S50000x128, .f32⟩
  | 109 => ⟨S640000x1, .i32⟩
  | 110 => ⟨S50000x128, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x128, .f32⟩
  | 120 => ⟨S640000x1, .f32⟩
  | 121 => ⟨S640000x128, .f32⟩
  | 122 => ⟨S640000x128, .f32⟩
  | 123 => ⟨S_, .f32⟩
  | 124 => ⟨S50000x128, .f32⟩
  | 125 => ⟨S640000x1, .i32⟩
  | 126 => ⟨S50000x128, .f32⟩
  | 127 => ⟨S50000x128, .f32⟩
  | _ => ⟨S50000x256, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128, .f32⟩
  | 5 => ⟨S50000x128, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x128, .f32⟩
  | 15 => ⟨S640000x1, .f32⟩
  | 16 => ⟨S640000x128, .f32⟩
  | 17 => ⟨S640000x128, .f32⟩
  | 18 => ⟨S_, .f32⟩
  | 19 => ⟨S50000x128, .f32⟩
  | 20 => ⟨S640000x1, .i32⟩
  | 21 => ⟨S50000x128, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000x128, .f32⟩
  | 31 => ⟨S640000x1, .f32⟩
  | 32 => ⟨S640000x128, .f32⟩
  | 33 => ⟨S640000x128, .f32⟩
  | 34 => ⟨S_, .f32⟩
  | 35 => ⟨S50000x128, .f32⟩
  | 36 => ⟨S640000x1, .i32⟩
  | 37 => ⟨S50000x128, .f32⟩
  | 38 => ⟨S50000x128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S50000x128, .f32⟩
  | 45 => ⟨S_, .i32⟩
  | 46 => ⟨S640000, .i32⟩
  | 47 => ⟨S640000, .i1⟩
  | 48 => ⟨S_, .i32⟩
  | 49 => ⟨S640000, .i32⟩
  | 50 => ⟨S640000, .i32⟩
  | 51 => ⟨S640000, .i32⟩
  | 52 => ⟨S640000x1, .i32⟩
  | 53 => ⟨S640000x128, .f32⟩
  | 54 => ⟨S640000x1, .f32⟩
  | 55 => ⟨S640000x128, .f32⟩
  | 56 => ⟨S640000x128, .f32⟩
  | 57 => ⟨S_, .f32⟩
  | 58 => ⟨S50000x128, .f32⟩
  | 59 => ⟨S640000x1, .i32⟩
  | 60 => ⟨S50000x128, .f32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x128, .f32⟩
  | 70 => ⟨S640000x1, .f32⟩
  | 71 => ⟨S640000x128, .f32⟩
  | 72 => ⟨S640000x128, .f32⟩
  | 73 => ⟨S_, .f32⟩
  | 74 => ⟨S50000x128, .f32⟩
  | 75 => ⟨S640000x1, .i32⟩
  | 76 => ⟨S50000x128, .f32⟩
  | 77 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_v23 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_call2_v0 : Ref sig .tc := ⟨.hbm, 49, rfl⟩
abbrev main_call2_cst : Ref sig .tc := ⟨.hbm, 50, rfl⟩
abbrev main_call2_v1 : Ref sig .tc := ⟨.hbm, 51, rfl⟩
abbrev main_v27 : Ref sig .tc := ⟨.hbm, 52, rfl⟩
abbrev main_cst_7 : Ref sig .tc := ⟨.hbm, 53, rfl⟩
abbrev main_call3_v0 : Ref sig .tc := ⟨.hbm, 54, rfl⟩
abbrev main_call3_v1 : Ref sig .tc := ⟨.hbm, 55, rfl⟩
abbrev main_v28 : Ref sig .tc := ⟨.hbm, 56, rfl⟩
abbrev main_c_8 : Ref sig .tc := ⟨.hbm, 57, rfl⟩
abbrev main_v29 : Ref sig .tc := ⟨.hbm, 58, rfl⟩
abbrev main_v30 : Ref sig .tc := ⟨.hbm, 59, rfl⟩
abbrev main_c_9 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_10 : Ref sig .tc := ⟨.hbm, 66, rfl⟩
abbrev main_v36 : Ref sig .tc := ⟨.hbm, 67, rfl⟩
abbrev main_v37 : Ref sig .tc := ⟨.hbm, 68, rfl⟩
abbrev main_c_11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_v48 : Ref sig .tc := ⟨.hbm, 81, rfl⟩
abbrev main_c_13 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_14 : Ref sig .tc := ⟨.hbm, 95, rfl⟩
abbrev main_v61 : Ref sig .tc := ⟨.hbm, 96, rfl⟩
abbrev main_v62 : Ref sig .tc := ⟨.hbm, 97, rfl⟩
abbrev main_c_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_c_18 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_19 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_20 : Ref sig .tc := ⟨.hbm, 134, rfl⟩
abbrev main_v94 : Ref sig .tc := ⟨.hbm, 135, rfl⟩
abbrev main_v95 : Ref sig .tc := ⟨.hbm, 136, rfl⟩
abbrev main_c_21 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_22 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_c_23 : Ref sig .tc := ⟨.hbm, 150, rfl⟩
abbrev main_v107 : Ref sig .tc := ⟨.hbm, 151, rfl⟩
abbrev main_v108 : Ref sig .tc := ⟨.hbm, 152, rfl⟩
abbrev main_c_24 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_25 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_c_26 : Ref sig .tc := ⟨.hbm, 173, rfl⟩
abbrev main_v127 : Ref sig .tc := ⟨.hbm, 174, rfl⟩
abbrev main_v128 : Ref sig .tc := ⟨.hbm, 175, rfl⟩
abbrev main_c_27 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_28 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_29 : Ref sig .tc := ⟨.hbm, 189, rfl⟩
abbrev main_v140 : Ref sig .tc := ⟨.hbm, 190, rfl⟩
abbrev main_v141 : Ref sig .tc := ⟨.hbm, 191, rfl⟩
abbrev main_c_30 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_31 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000 : S_.BroadcastsInDim S50000 (![] : Fin 0 → Fin S50000.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000_S640000x1_S640000_n_0_n_n_0_1_1_wf : GatherDims.WF S50000 S640000x1 S640000 [] [0] [] [0] [] 1 ![1]
  scatter_S50000_S640000x1_S640000_n_0_0_1_wf : ScatterDims.WF S50000 S640000x1 S640000 [] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)

variable [Facts₀]

def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v86) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v87) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v87) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v119) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v120) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v120) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v122) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v125) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v126) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v120) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v152) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v153) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x256 : Shape := ⟨2, ![50000, 256]⟩
abbrev S2x640000 : Shape := ⟨2, ![2, 640000]⟩
abbrev S50000 : Shape := ⟨1, ![50000]⟩
abbrev S640000 : Shape := ⟨1, ![640000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S1x640000 : Shape := ⟨2, ![1, 640000]⟩
abbrev S_ : Shape := ⟨0, ![]⟩
abbrev S640000x1 : Shape := ⟨2, ![640000, 1]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S640000x128 : Shape := ⟨2, ![640000, 128]⟩

abbrev nBuf : Space → Nat
  | .hbm => 251
  | .vmem => 0
  | .smem => 0
  | _ => 0

abbrev hbmTy0_0 (i : Nat) : BufTy := match i % 128 with
  | 0 => ⟨S50000x256, .f32⟩
  | 1 => ⟨S2x640000, .i32⟩
  | 2 => ⟨S50000, .f32⟩
  | 3 => ⟨S640000, .f32⟩
  | 4 => ⟨S256x128, .f32⟩
  | 5 => ⟨S128, .f32⟩
  | 6 => ⟨S3x128x128, .f32⟩
  | 7 => ⟨S3x128, .f32⟩
  | 8 => ⟨S1x640000, .i32⟩
  | 9 => ⟨S640000, .i32⟩
  | 10 => ⟨S1x640000, .i32⟩
  | 11 => ⟨S640000, .i32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000, .f32⟩
  | 21 => ⟨S_, .f32⟩
  | 22 => ⟨S50000, .f32⟩
  | 23 => ⟨S640000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S640000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000, .f32⟩
  | 39 => ⟨S_, .f32⟩
  | 40 => ⟨S50000, .f32⟩
  | 41 => ⟨S50000, .i1⟩
  | 42 => ⟨S_, .f32⟩
  | 43 => ⟨S_, .f32⟩
  | 44 => ⟨S50000, .f32⟩
  | 45 => ⟨S50000, .f32⟩
  | 46 => ⟨S_, .f32⟩
  | 47 => ⟨S50000, .f32⟩
  | 48 => ⟨S50000, .f32⟩
  | 49 => ⟨S50000, .f32⟩
  | 50 => ⟨S_, .f32⟩
  | 51 => ⟨S50000, .f32⟩
  | 52 => ⟨S50000, .i1⟩
  | 53 => ⟨S_, .f32⟩
  | 54 => ⟨S_, .f32⟩
  | 55 => ⟨S50000, .f32⟩
  | 56 => ⟨S50000, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000, .f32⟩
  | 75 => ⟨S640000, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S1x128x128, .f32⟩
  | 84 => ⟨S128x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S_, .i32⟩
  | 92 => ⟨S640000, .i32⟩
  | 93 => ⟨S640000, .i1⟩
  | 94 => ⟨S_, .i32⟩
  | 95 => ⟨S640000, .i32⟩
  | 96 => ⟨S640000, .i32⟩
  | 97 => ⟨S640000, .i32⟩
  | 98 => ⟨S640000x1, .i32⟩
  | 99 => ⟨S640000x128, .f32⟩
  | 100 => ⟨S640000, .f32⟩
  | 101 => ⟨S640000x1, .f32⟩
  | 102 => ⟨S640000x128, .f32⟩
  | 103 => ⟨S640000x128, .f32⟩
  | 104 => ⟨S_, .f32⟩
  | 105 => ⟨S50000x128, .f32⟩
  | 106 => ⟨S640000x1, .i32⟩
  | 107 => ⟨S50000x128, .f32⟩
  | 108 => ⟨S_, .i32⟩
  | 109 => ⟨S640000, .i32⟩
  | 110 => ⟨S640000, .i1⟩
  | 111 => ⟨S_, .i32⟩
  | 112 => ⟨S640000, .i32⟩
  | 113 => ⟨S640000, .i32⟩
  | 114 => ⟨S640000, .i32⟩
  | 115 => ⟨S640000x1, .i32⟩
  | 116 => ⟨S640000x128, .f32⟩
  | 117 => ⟨S_, .i32⟩
  | 118 => ⟨S640000, .i32⟩
  | 119 => ⟨S640000, .i1⟩
  | 120 => ⟨S_, .i32⟩
  | 121 => ⟨S640000, .i32⟩
  | 122 => ⟨S640000, .i32⟩
  | 123 => ⟨S640000, .i32⟩
  | 124 => ⟨S640000x1, .i32⟩
  | 125 => ⟨S640000, .f32⟩
  | 126 => ⟨S640000, .f32⟩
  | 127 => ⟨S640000, .f32⟩
  | _ => ⟨S50000x256, .f32⟩

abbrev hbmTy0_1 (i : Nat) : BufTy := match i % 128 with
  | 0 => ⟨S640000x1, .f32⟩
  | 1 => ⟨S640000x128, .f32⟩
  | 2 => ⟨S640000x128, .f32⟩
  | 3 => ⟨S_, .f32⟩
  | 4 => ⟨S50000x128, .f32⟩
  | 5 => ⟨S640000x1, .i32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S1x128x128, .f32⟩
  | 12 => ⟨S128x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000x128, .f32⟩
  | 28 => ⟨S640000, .f32⟩
  | 29 => ⟨S640000x1, .f32⟩
  | 30 => ⟨S640000x128, .f32⟩
  | 31 => ⟨S640000x128, .f32⟩
  | 32 => ⟨S_, .f32⟩
  | 33 => ⟨S50000x128, .f32⟩
  | 34 => ⟨S640000x1, .i32⟩
  | 35 => ⟨S50000x128, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x128, .f32⟩
  | 45 => ⟨S_, .i32⟩
  | 46 => ⟨S640000, .i32⟩
  | 47 => ⟨S640000, .i1⟩
  | 48 => ⟨S_, .i32⟩
  | 49 => ⟨S640000, .i32⟩
  | 50 => ⟨S640000, .i32⟩
  | 51 => ⟨S640000, .i32⟩
  | 52 => ⟨S640000x1, .i32⟩
  | 53 => ⟨S640000, .f32⟩
  | 54 => ⟨S640000, .f32⟩
  | 55 => ⟨S640000, .f32⟩
  | 56 => ⟨S640000x1, .f32⟩
  | 57 => ⟨S640000x128, .f32⟩
  | 58 => ⟨S640000x128, .f32⟩
  | 59 => ⟨S_, .f32⟩
  | 60 => ⟨S50000x128, .f32⟩
  | 61 => ⟨S640000x1, .i32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S1x128x128, .f32⟩
  | 68 => ⟨S128x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S_, .i32⟩
  | 76 => ⟨S640000, .i32⟩
  | 77 => ⟨S640000, .i1⟩
  | 78 => ⟨S_, .i32⟩
  | 79 => ⟨S640000, .i32⟩
  | 80 => ⟨S640000, .i32⟩
  | 81 => ⟨S640000, .i32⟩
  | 82 => ⟨S640000x1, .i32⟩
  | 83 => ⟨S640000x128, .f32⟩
  | 84 => ⟨S640000, .f32⟩
  | 85 => ⟨S640000x1, .f32⟩
  | 86 => ⟨S640000x128, .f32⟩
  | 87 => ⟨S640000x128, .f32⟩
  | 88 => ⟨S_, .f32⟩
  | 89 => ⟨S50000x128, .f32⟩
  | 90 => ⟨S640000x1, .i32⟩
  | 91 => ⟨S50000x128, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S640000x128, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000, .f32⟩
  | 110 => ⟨S640000, .f32⟩
  | 111 => ⟨S640000, .f32⟩
  | 112 => ⟨S640000x1, .f32⟩
  | 113 => ⟨S640000x128, .f32⟩
  | 114 => ⟨S640000x128, .f32⟩
  | 115 => ⟨S_, .f32⟩
  | 116 => ⟨S50000x128, .f32⟩
  | 117 => ⟨S640000x1, .i32⟩
  | 118 => ⟨S50000x128, .f32⟩
  | 119 => ⟨S50000x128, .f32⟩
  | 120 => ⟨S_, .f32⟩
  | 121 => ⟨S50000x128, .f32⟩
  | 122 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_v23 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_call2_v0 : Ref sig .tc := ⟨.hbm, 49, rfl⟩
abbrev main_call2_cst : Ref sig .tc := ⟨.hbm, 50, rfl⟩
abbrev main_call2_v1 : Ref sig .tc := ⟨.hbm, 51, rfl⟩
abbrev main_v27 : Ref sig .tc := ⟨.hbm, 52, rfl⟩
abbrev main_cst_7 : Ref sig .tc := ⟨.hbm, 53, rfl⟩
abbrev main_call3_v0 : Ref sig .tc := ⟨.hbm, 54, rfl⟩
abbrev main_call3_v1 : Ref sig .tc := ⟨.hbm, 55, rfl⟩
abbrev main_v28 : Ref sig .tc := ⟨.hbm, 56, rfl⟩
abbrev main_c_8 : Ref sig .tc := ⟨.hbm, 57, rfl⟩
abbrev main_v29 : Ref sig .tc := ⟨.hbm, 58, rfl⟩
abbrev main_v30 : Ref sig .tc := ⟨.hbm, 59, rfl⟩
abbrev main_c_9 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_10 : Ref sig .tc := ⟨.hbm, 66, rfl⟩
abbrev main_v36 : Ref sig .tc := ⟨.hbm, 67, rfl⟩
abbrev main_v37 : Ref sig .tc := ⟨.hbm, 68, rfl⟩
abbrev main_c_11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call4_cst : Ref sig .tc := ⟨.hbm, 80, rfl⟩
abbrev main_call4_v0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_c_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_c_16 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_17 : Ref sig .tc := ⟨.hbm, 117, rfl⟩
abbrev main_v78 : Ref sig .tc := ⟨.hbm, 118, rfl⟩
abbrev main_v79 : Ref sig .tc := ⟨.hbm, 119, rfl⟩
abbrev main_c_18 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_19 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_call5_cst : Ref sig .tc := ⟨.hbm, 136, rfl⟩
abbrev main_call5_v0 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_20 : Ref sig .tc := ⟨.hbm, 147, rfl⟩
abbrev main_v103 : Ref sig .tc := ⟨.hbm, 148, rfl⟩
abbrev main_v104 : Ref sig .tc := ⟨.hbm, 149, rfl⟩
abbrev main_c_21 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_22 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_23 : Ref sig .tc := ⟨.hbm, 164, rfl⟩
abbrev main_v117 : Ref sig .tc := ⟨.hbm, 165, rfl⟩
abbrev main_v118 : Ref sig .tc := ⟨.hbm, 166, rfl⟩
abbrev main_c_24 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_c_25 : Ref sig .tc := ⟨.hbm, 173, rfl⟩
abbrev main_v124 : Ref sig .tc := ⟨.hbm, 174, rfl⟩
abbrev main_v125 : Ref sig .tc := ⟨.hbm, 175, rfl⟩
abbrev main_c_26 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_27 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_call6_cst : Ref sig .tc := ⟨.hbm, 192, rfl⟩
abbrev main_call6_v0 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_c_28 : Ref sig .tc := ⟨.hbm, 203, rfl⟩
abbrev main_v149 : Ref sig .tc := ⟨.hbm, 204, rfl⟩
abbrev main_v150 : Ref sig .tc := ⟨.hbm, 205, rfl⟩
abbrev main_c_29 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_cst_30 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_c_31 : Ref sig .tc := ⟨.hbm, 220, rfl⟩
abbrev main_v163 : Ref sig .tc := ⟨.hbm, 221, rfl⟩
abbrev main_v164 : Ref sig .tc := ⟨.hbm, 222, rfl⟩
abbrev main_c_32 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_c_33 : Ref sig .tc := ⟨.hbm, 229, rfl⟩
abbrev main_v170 : Ref sig .tc := ⟨.hbm, 230, rfl⟩
abbrev main_v171 : Ref sig .tc := ⟨.hbm, 231, rfl⟩
abbrev main_c_34 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_cst_35 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_call7_cst : Ref sig .tc := ⟨.hbm, 248, rfl⟩
abbrev main_call7_v0 : Ref sig .tc := ⟨.hbm, 249, rfl⟩
abbrev main_v186 : Ref sig .tc := ⟨.hbm, 250, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000 : S_.BroadcastsInDim S50000 (![] : Fin 0 → Fin S50000.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S640000x1_S640000x128_0_1 : S640000x1.BroadcastsInDim S640000x128 (![0, 1] : Fin 2 → Fin S640000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000_S640000x1_S640000_n_0_n_n_0_1_1_wf : GatherDims.WF S50000 S640000x1 S640000 [] [0] [] [0] [] 1 ![1]
  scatter_S50000_S640000x1_S640000_n_0_0_1_wf : ScatterDims.WF S50000 S640000x1 S640000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1

variable [Facts₀]

def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.RunValue.lean ====
/-
  The idealized kernel's run with its result NAMED: every weakly fair execution of @main terminates, nothing faulting,
  with the result array at what the last region's write-backs leave (the fold of @main's segments at the result buffer)
  and the argument arrays as launched. The launch over the segments is the frame's; only the last step differs, which
  reads the result buffer as well as the arguments off the final thread state.
-/
import proofs.«175211_j77953656422746_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last thread state beside the arguments. -/
theorem run_result : θ_run defs (onTc (τ := τ) (main (F := F))) ⟨m, fun _ => 0, ρ⟩ (fun r => ∀ c : Dev nD,
      r.2.mem ((c.tc : Thread nD τ).loc main_v153) = W22 m ρ c (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v153 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c)⟩)

end Cert.KernelIdeal.RunValue

end
-- ==== Proof.ChainPre.lean ====
/-
  The host operations of the kernel's program before its first pallas_call, read against the reference's stages. The
  kernel's program begins with the same operations as the reference: the two rows of the incidence list (buffers 1
  and 3), the node and hyperedge degrees with their inverse square roots (an infinite value replaced by zero), and
  the per-incidence coefficient (buffer 43): the two inverse square roots gathered along the incidence list and
  multiplied. The contents are followed one stretch of operations at a time: a stretch's results are stated for ANY
  contents V the stretch may start from, under hypotheses naming what V holds at the buffers the stretch reads; the
  stretches are then chained from the launch memory. The arguments, and buffers 1 and 3 once written, are written by
  no later operation, so they are carried unchanged. The last operation reshapes the input layer's bias from [128] to
  [1, 128].
-/
import proofs.«175211_j77953656422746_1_alg».proof.Proof.Gen.KernelIdeal.Frame
import proofs.«175211_j77953656422746_1_alg».proof.Proof.Gen.ReferenceIdeal.Read

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

section Stretches

variable (V : Valuation τ sig (Elt Ideal))

/-- Contents moved to a typed reference's buffer type and back are unchanged. -/
theorem ofBuf_toBuf {T : BufTy} (x : TRef sig T) (v : T.Contents (Elt Ideal)) : x.ofBuf (x.toBuf v) = v := by
  obtain ⟨r, rfl, _, _⟩ := x
  rfl

/-! ## Buffers a run of stretches does not write keep their contents -/

theorem keep08_arg0 : StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V)))))))) (Proc.devRef .tc main_arg0) = V (Proc.devRef .tc main_arg0) := by
  dsimp only [hostOps0, hostOps0_1, hostOps0_2, hostOps0_3, hostOps0_4, hostOps0_5, hostOps0_6, hostOps0_7, hostOps0_8]
  after_results_simp
theorem keep08_arg1 : StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V)))))))) (Proc.devRef .tc main_arg1) = V (Proc.devRef .tc main_arg1) := by
  dsimp only [hostOps0, hostOps0_1, hostOps0_2, hostOps0_3, hostOps0_4, hostOps0_5, hostOps0_6, hostOps0_7, hostOps0_8]
  after_results_simp
theorem keep08_arg2 : StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V)))))))) (Proc.devRef .tc main_arg2) = V (Proc.devRef .tc main_arg2) := by
  dsimp only [hostOps0, hostOps0_1, hostOps0_2, hostOps0_3, hostOps0_4, hostOps0_5, hostOps0_6, hostOps0_7, hostOps0_8]
  after_results_simp
theorem keep08_arg3 : StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V)))))))) (Proc.devRef .tc main_arg3) = V (Proc.devRef .tc main_arg3) := by
  dsimp only [hostOps0, hostOps0_1, hostOps0_2, hostOps0_3, hostOps0_4, hostOps0_5, hostOps0_6, hostOps0_7, hostOps0_8]
  after_results_simp
theorem keep08_arg4 : StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V)))))))) (Proc.devRef .tc main_arg4) = V (Proc.devRef .tc main_arg4) := by
  dsimp only [hostOps0, hostOps0_1, hostOps0_2, hostOps0_3, hostOps0_4, hostOps0_5, hostOps0_6, hostOps0_7, hostOps0_8]
  after_results_simp
theorem keep08_arg5 : StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V)))))))) (Proc.devRef .tc main_arg5) = V (Proc.devRef .tc main_arg5) := by
  dsimp only [hostOps0, hostOps0_1, hostOps0_2, hostOps0_3, hostOps0_4, hostOps0_5, hostOps0_6, hostOps0_7, hostOps0_8]
  after_results_simp
theorem keep08_arg6 : StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V)))))))) (Proc.devRef .tc main_arg6) = V (Proc.devRef .tc main_arg6) := by
  dsimp only [hostOps0, hostOps0_1, hostOps0_2, hostOps0_3, hostOps0_4, hostOps0_5, hostOps0_6, hostOps0_7, hostOps0_8]
  after_results_simp
theorem keep08_arg7 : StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V)))))))) (Proc.devRef .tc main_arg7) = V (Proc.devRef .tc main_arg7) := by
  dsimp only [hostOps0, hostOps0_1, hostOps0_2, hostOps0_3, hostOps0_4, hostOps0_5, hostOps0_6, hostOps0_7, hostOps0_8]
  after_results_simp
theorem keep07_arg5 : StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V))))))) (Proc.devRef .tc main_arg5) = V (Proc.devRef .tc main_arg5) := by
  dsimp only [hostOps0, hostOps0_1, hostOps0_2, hostOps0_3, hostOps0_4, hostOps0_5, hostOps0_6, hostOps0_7]
  after_results_simp
theorem keep17_v1 : StableHlo.after hostOps0_7 (StableHlo.after hostOps0_6 (StableHlo.after hostOps0_5 (StableHlo.after hostOps0_4 (StableHlo.after hostOps0_3 (StableHlo.after hostOps0_2 (StableHlo.after hostOps0_1 V)))))) (Proc.devRef .tc main_v1) = V (Proc.devRef .tc main_v1) := by
  dsimp only [hostOps0_1, hostOps0_2, hostOps0_3, hostOps0_4, hostOps0_5, hostOps0_6, hostOps0_7]
  after_results_simp
theorem keep17_v3 : StableHlo.after hostOps0_7 (StableHlo.after hostOps0_6 (StableHlo.after hostOps0_5 (StableHlo.after hostOps0_4 (StableHlo.after hostOps0_3 (StableHlo.after hostOps0_2 (StableHlo.after hostOps0_1 V)))))) (Proc.devRef .tc main_v3) = V (Proc.devRef .tc main_v3) := by
  dsimp only [hostOps0_1, hostOps0_2, hostOps0_3, hostOps0_4, hostOps0_5, hostOps0_6, hostOps0_7]
  after_results_simp
theorem keep88_v1 : StableHlo.after hostOps0_8 V (Proc.devRef .tc main_v1) = V (Proc.devRef .tc main_v1) := by
  dsimp only [hostOps0_8]
  after_results_simp
theorem keep88_v3 : StableHlo.after hostOps0_8 V (Proc.devRef .tc main_v3) = V (Proc.devRef .tc main_v3) := by
  dsimp only [hostOps0_8]
  after_results_simp
theorem keep12_v22 : StableHlo.after hostOps0_2 (StableHlo.after hostOps0_1 V) (Proc.devRef .tc main_v22) = V (Proc.devRef .tc main_v22) := by
  dsimp only [hostOps0_1, hostOps0_2]
  after_results_simp
theorem keep22_v23 : StableHlo.after hostOps0_2 V (Proc.devRef .tc main_v23) = V (Proc.devRef .tc main_v23) := by
  dsimp only [hostOps0_2]
  after_results_simp
theorem keep13_v20 : StableHlo.after hostOps0_3 (StableHlo.after hostOps0_2 (StableHlo.after hostOps0_1 V)) (Proc.devRef .tc main_v20) = V (Proc.devRef .tc main_v20) := by
  dsimp only [hostOps0_1, hostOps0_2, hostOps0_3]
  after_results_simp
theorem keep47_v24 : StableHlo.after hostOps0_7 (StableHlo.after hostOps0_6 (StableHlo.after hostOps0_5 (StableHlo.after hostOps0_4 V))) (Proc.devRef .tc main_v24) = V (Proc.devRef .tc main_v24) := by
  dsimp only [hostOps0_4, hostOps0_5, hostOps0_6, hostOps0_7]
  after_results_simp
theorem keep56_v26 : StableHlo.after hostOps0_6 (StableHlo.after hostOps0_5 V) (Proc.devRef .tc main_v26) = V (Proc.devRef .tc main_v26) := by
  dsimp only [hostOps0_5, hostOps0_6]
  after_results_simp
theorem keep66_v27 : StableHlo.after hostOps0_6 V (Proc.devRef .tc main_v27) = V (Proc.devRef .tc main_v27) := by
  dsimp only [hostOps0_6]
  after_results_simp

/-! ## What each stretch computes, from what it finds -/

set_option maxHeartbeats 400000 in
/-- The first stretch: the incidence list's two rows, the two degree vectors, the nodes' inverse square roots. -/
theorem s0_v1 (a1 : V (Proc.devRef .tc main_arg1) = (m ((c : Thread nD τ).loc main_arg1))) :
    StableHlo.after hostOps0 V (Proc.devRef .tc main_v1) = Cert.ReferenceIdeal.Read.val_main_v1 (F := Ideal) (m ((c : Thread nD τ).loc main_arg1)) := by
  dsimp only [hostOps0]
  after_results_simp
  rw [a1]
  rfl
set_option maxHeartbeats 400000 in
theorem s0_v3 (a1 : V (Proc.devRef .tc main_arg1) = (m ((c : Thread nD τ).loc main_arg1))) :
    StableHlo.after hostOps0 V (Proc.devRef .tc main_v3) = Cert.ReferenceIdeal.Read.val_main_v3 (F := Ideal) (m ((c : Thread nD τ).loc main_arg1)) := by
  dsimp only [hostOps0]
  after_results_simp
  rw [a1]
  rfl
set_option maxHeartbeats 400000 in
theorem s0_v20 (a1 : V (Proc.devRef .tc main_arg1) = (m ((c : Thread nD τ).loc main_arg1))) (a3 : V (Proc.devRef .tc main_arg3) = (m ((c : Thread nD τ).loc main_arg3))) :
    StableHlo.after hostOps0 V (Proc.devRef .tc main_v20) = Cert.ReferenceIdeal.Read.val_main_v20 (F := Ideal) (m ((c : Thread nD τ).loc main_arg1)) (m ((c : Thread nD τ).loc main_arg3)) := by
  dsimp only [hostOps0]
  after_results_simp
  rw [a1, a3]
  rfl
set_option maxHeartbeats 400000 in
theorem s0_v22 (a1 : V (Proc.devRef .tc main_arg1) = (m ((c : Thread nD τ).loc main_arg1))) (a2 : V (Proc.devRef .tc main_arg2) = (m ((c : Thread nD τ).loc main_arg2))) :
    StableHlo.after hostOps0 V (Proc.devRef .tc main_v22) = Cert.ReferenceIdeal.Read.val_main_v22 (F := Ideal) (m ((c : Thread nD τ).loc main_arg1)) (m ((c : Thread nD τ).loc main_arg2)) := by
  dsimp only [hostOps0]
  after_results_simp
  rw [a1, a2]
  rfl
set_option maxHeartbeats 400000 in
/-- Which of the nodes' inverse square roots are infinite: |x| = +inf, entry by entry. -/
theorem s1_v23 (h22 : V (Proc.devRef .tc main_v22) = Cert.ReferenceIdeal.Read.val_main_v22 (F := Ideal) (m ((c : Thread nD τ).loc main_arg1)) (m ((c : Thread nD τ).loc main_arg2))) :
    StableHlo.after hostOps0_1 V (Proc.devRef .tc main_v23) = Cert.ReferenceIdeal.Read.val_main_v23 (F := Ideal) (m ((c : Thread nD τ).loc main_arg1)) (m ((c : Thread nD τ).loc main_arg2)) := by
  dsimp only [hostOps0_1]
  after_results_simp
  simp only [ofBuf_toBuf]
  show (cmpf (F := Ideal) .oeq : (⟨S50000, .f32⟩ : BufTy).Contents (Elt Ideal) → (⟨S50000, .f32⟩ : BufTy).Contents (Elt Ideal) → (⟨S50000, .i1⟩ : BufTy).Contents (Elt Ideal)) ((Host.absf (F := Ideal) : (⟨S50000, .f32⟩ : BufTy).Contents (Elt Ideal) → (⟨S50000, .f32⟩ : BufTy).Contents (Elt Ideal)) (V (Proc.devRef .tc main_v22))) ((broadcastInDim S50000 ![] bcast_S_S50000 : (⟨S_, .f32⟩ : BufTy).Contents (Elt Ideal) → (⟨S50000, .f32⟩ : BufTy).Contents (Elt Ideal)) (constant (F := Ideal) S_ .f32 0x7F800000#32)) = _
  rw [h22]
  rfl
set_option maxHeartbeats 400000 in
theorem s2_cst_5 :
    StableHlo.after hostOps0_2 V (Proc.devRef .tc main_cst_5) = Cert.ReferenceIdeal.Read.val_main_cst_5 (F := Ideal) := by
  dsimp only [hostOps0_2]
  after_results_simp
  rfl
set_option maxHeartbeats 400000 in
/-- The infinite ones replaced by zero. -/
theorem s3_v24 (h5 : V (Proc.devRef .tc main_cst_5) = Cert.ReferenceIdeal.Read.val_main_cst_5 (F := Ideal)) (h23 : V (Proc.devRef .tc main_v23) = Cert.ReferenceIdeal.Read.val_main_v23 (F := Ideal) (m ((c : Thread nD τ).loc main_arg1)) (m ((c : Thread nD τ).loc main_arg2))) (h22 : V (Proc.devRef .tc main_v22) = Cert.ReferenceIdeal.Read.val_main_v22 (F := Ideal) (m ((c : Thread nD τ).loc main_arg1)) (m ((c : Thread nD τ).loc main_arg2))) :
    StableHlo.after hostOps0_3 V (Proc.devRef .tc main_v24) = Cert.ReferenceIdeal.Read.val_main_v24 (F := Ideal) (m ((c : Thread nD τ).loc main_arg1)) (m ((c : Thread nD τ).loc main_arg2)) := by
  dsimp only [hostOps0_3]
  after_results_simp
  simp only [ofBuf_toBuf]
  show (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) (V (Proc.devRef .tc main_v23)) ((broadcastInDim S50000 ![] bcast_S_S50000 : (⟨S_, .f32⟩ : BufTy).Contents (Elt Ideal) → (⟨S50000, .f32⟩ : BufTy).Contents (Elt Ideal)) (id (V (Proc.devRef .tc main_cst_5)))) (V (Proc.devRef .tc main_v22)) = _
  rw [h5, h23, h22]
  rfl
set_option maxHeartbeats 400000 in
/-- The hyperedges' inverse square roots, treated the same way. -/
theorem s4_v26 (h20 : V (Proc.devRef .tc main_v20) = Cert.ReferenceIdeal.Read.val_main_v20 (F := Ideal) (m ((c : Thread nD τ).loc main_arg1)) (m ((c : Thread nD τ).loc main_arg3))) :
    StableHlo.after hostOps0_4 V (Proc.devRef .tc main_v26) = Cert.ReferenceIdeal.Read.val_main_v26 (F := Ideal) (m ((c : Thread nD τ).loc main_arg1)) (m ((c : Thread nD τ).loc main_arg3)) := by
  dsimp only [hostOps0_4]
  after_results_simp
  rw [h20]
  rfl
set_option maxHeartbeats 400000 in
theorem s5_v27 (h26 : V (Proc.devRef .tc main_v26) = Cert.ReferenceIdeal.Read.val_main_v26 (F := Ideal) (m ((c : Thread nD τ).loc main_arg1)) (m ((c : Thread nD τ).loc main_arg3))) :
    StableHlo.after hostOps0_5 V (Proc.devRef .tc main_v27) = Cert.ReferenceIdeal.Read.val_main_v27 (F := Ideal) (m ((c : Thread nD τ).loc main_arg1)) (m ((c : Thread nD τ).loc main_arg3)) := by
  dsimp only [hostOps0_5]
  after_results_simp
  simp only [ofBuf_toBuf]
  show (cmpf (F := Ideal) .oeq : (⟨S50000, .f32⟩ : BufTy).Contents (Elt Ideal) → (⟨S50000, .f32⟩ : BufTy).Contents (Elt Ideal) → (⟨S50000, .i1⟩ : BufTy).Contents (Elt Ideal)) ((Host.absf (F := Ideal) : (⟨S50000, .f32⟩ : BufTy).Contents (Elt Ideal) → (⟨S50000, .f32⟩ : BufTy).Contents (Elt Ideal)) (V (Proc.devRef .tc main_v26))) ((broadcastInDim S50000 ![] bcast_S_S50000 : (⟨S_, .f32⟩ : BufTy).Contents (Elt Ideal) → (⟨S50000, .f32⟩ : BufTy).Contents (Elt Ideal)) (constant (F := Ideal) S_ .f32 0x7F800000#32)) = _
  rw [h26]
  rfl
set_option maxHeartbeats 400000 in
theorem s6_cst_7 :
    StableHlo.after hostOps0_6 V (Proc.devRef .tc main_cst_7) = Cert.ReferenceIdeal.Read.val_main_cst_7 (F := Ideal) := by
  dsimp only [hostOps0_6]
  after_results_simp
  rfl
set_option maxHeartbeats 400000 in
theorem s7_v28 (h7 : V (Proc.devRef .tc main_cst_7) = Cert.ReferenceIdeal.Read.val_main_cst_7 (F := Ideal)) (h27 : V (Proc.devRef .tc main_v27) = Cert.ReferenceIdeal.Read.val_main_v27 (F := Ideal) (m ((c : Thread nD τ).loc main_arg1)) (m ((c : Thread nD τ).loc main_arg3))) (h26 : V (Proc.devRef .tc main_v26) = Cert.ReferenceIdeal.Read.val_main_v26 (F := Ideal) (m ((c : Thread nD τ).loc main_arg1)) (m ((c : Thread nD τ).loc main_arg3))) :
    StableHlo.after hostOps0_7 V (Proc.devRef .tc main_v28) = Cert.ReferenceIdeal.Read.val_main_v28 (F := Ideal) (m ((c : Thread nD τ).loc main_arg1)) (m ((c : Thread nD τ).loc main_arg3)) := by
  dsimp only [hostOps0_7]
  after_results_simp
  simp only [ofBuf_toBuf]
  show (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) (V (Proc.devRef .tc main_v27)) ((broadcastInDim S50000 ![] bcast_S_S50000 : (⟨S_, .f32⟩ : BufTy).Contents (Elt Ideal) → (⟨S50000, .f32⟩ : BufTy).Contents (Elt Ideal)) (id (V (Proc.devRef .tc main_cst_7)))) (V (Proc.devRef .tc main_v26)) = _
  rw [h7, h27, h26]
  rfl
set_option maxHeartbeats 400000 in
/-- The last stretch: both inverse square roots gathered along the incidence list and multiplied. -/
theorem s8_v43 (h1 : V (Proc.devRef .tc main_v1) = Cert.ReferenceIdeal.Read.val_main_v1 (F := Ideal) (m ((c : Thread nD τ).loc main_arg1))) (h3 : V (Proc.devRef .tc main_v3) = Cert.ReferenceIdeal.Read.val_main_v3 (F := Ideal) (m ((c : Thread nD τ).loc main_arg1))) (h24 : V (Proc.devRef .tc main_v24) = Cert.ReferenceIdeal.Read.val_main_v24 (F := Ideal) (m ((c : Thread nD τ).loc main_arg1)) (m ((c : Thread nD τ).loc main_arg2))) (h28 : V (Proc.devRef .tc main_v28) = Cert.ReferenceIdeal.Read.val_main_v28 (F := Ideal) (m ((c : Thread nD τ).loc main_arg1)) (m ((c : Thread nD τ).loc main_arg3))) :
    StableHlo.after hostOps0_8 V (Proc.devRef .tc main_v43) = Cert.ReferenceIdeal.Read.val_main_v43 (F := Ideal) (m ((c : Thread nD τ).loc main_arg1)) (m ((c : Thread nD τ).loc main_arg2)) (m ((c : Thread nD τ).loc main_arg3)) := by
  dsimp only [hostOps0_8]
  after_results_simp
  rw [h1, h3, h24, h28]
  rfl
set_option maxHeartbeats 400000 in
/-- The input layer's bias as a [1, 128] row. -/
theorem s8_v44 (a5 : V (Proc.devRef .tc main_arg5) = (m ((c : Thread nD τ).loc main_arg5))) :
    StableHlo.after hostOps0_8 V (Proc.devRef .tc main_v44) = shapeCast S1x128 (m ((c : Thread nD τ).loc main_arg5)) shapeCasts_S128_S1x128 := by
  dsimp only [hostOps0_8]
  after_results_simp
  rw [a5]
  rfl

end Stretches

/-! ## The stretches chained from the launch memory -/

theorem pre_arg0 : W9 m ρ c (Proc.devRef .tc main_arg0) = m ((c : Thread nD τ).loc main_arg0) :=
  keep08_arg0 (W0 m ρ c)
theorem pre_arg1 : W9 m ρ c (Proc.devRef .tc main_arg1) = m ((c : Thread nD τ).loc main_arg1) :=
  keep08_arg1 (W0 m ρ c)
theorem pre_arg2 : W9 m ρ c (Proc.devRef .tc main_arg2) = m ((c : Thread nD τ).loc main_arg2) :=
  keep08_arg2 (W0 m ρ c)
theorem pre_arg3 : W9 m ρ c (Proc.devRef .tc main_arg3) = m ((c : Thread nD τ).loc main_arg3) :=
  keep08_arg3 (W0 m ρ c)
theorem pre_arg4 : W9 m ρ c (Proc.devRef .tc main_arg4) = m ((c : Thread nD τ).loc main_arg4) :=
  keep08_arg4 (W0 m ρ c)
theorem pre_arg5 : W9 m ρ c (Proc.devRef .tc main_arg5) = m ((c : Thread nD τ).loc main_arg5) :=
  keep08_arg5 (W0 m ρ c)
theorem pre_arg6 : W9 m ρ c (Proc.devRef .tc main_arg6) = m ((c : Thread nD τ).loc main_arg6) :=
  keep08_arg6 (W0 m ρ c)
theorem pre_arg7 : W9 m ρ c (Proc.devRef .tc main_arg7) = m ((c : Thread nD τ).loc main_arg7) :=
  keep08_arg7 (W0 m ρ c)

theorem at1_v1 : W1 m ρ c (Proc.devRef .tc main_v1) = Cert.ReferenceIdeal.Read.val_main_v1 (F := Ideal) (m ((c : Thread nD τ).loc main_arg1)) :=
  s0_v1 m c (W0 m ρ c) rfl
theorem at1_v3 : W1 m ρ c (Proc.devRef .tc main_v3) = Cert.ReferenceIdeal.Read.val_main_v3 (F := Ideal) (m ((c : Thread nD τ).loc main_arg1)) :=
  s0_v3 m c (W0 m ρ c) rfl
theorem at1_v20 : W1 m ρ c (Proc.devRef .tc main_v20) = Cert.ReferenceIdeal.Read.val_main_v20 (F := Ideal) (m ((c : Thread nD τ).loc main_arg1)) (m ((c : Thread nD τ).loc main_arg3)) :=
  s0_v20 m c (W0 m ρ c) rfl rfl
theorem at1_v22 : W1 m ρ c (Proc.devRef .tc main_v22) = Cert.ReferenceIdeal.Read.val_main_v22 (F := Ideal) (m ((c : Thread nD τ).loc main_arg1)) (m ((c : Thread nD τ).loc main_arg2)) :=
  s0_v22 m c (W0 m ρ c) rfl rfl
theorem at2_v23 : W2 m ρ c (Proc.devRef .tc main_v23) = Cert.ReferenceIdeal.Read.val_main_v23 (F := Ideal) (m ((c : Thread nD τ).loc main_arg1)) (m ((c : Thread nD τ).loc main_arg2)) :=
  s1_v23 m c (W1 m ρ c) (at1_v22 m ρ c)
theorem at3_cst_5 : W3 m ρ c (Proc.devRef .tc main_cst_5) = Cert.ReferenceIdeal.Read.val_main_cst_5 (F := Ideal) :=
  s2_cst_5 (W2 m ρ c)
theorem at4_v24 : W4 m ρ c (Proc.devRef .tc main_v24) = Cert.ReferenceIdeal.Read.val_main_v24 (F := Ideal) (m ((c : Thread nD τ).loc main_arg1)) (m ((c : Thread nD τ).loc main_arg2)) :=
  s3_v24 m c (W3 m ρ c) (at3_cst_5 m ρ c) ((keep22_v23 (W2 m ρ c)).trans (at2_v23 m ρ c)) ((keep12_v22 (W1 m ρ c)).trans (at1_v22 m ρ c))
theorem at5_v26 : W5 m ρ c (Proc.devRef .tc main_v26) = Cert.ReferenceIdeal.Read.val_main_v26 (F := Ideal) (m ((c : Thread nD τ).loc main_arg1)) (m ((c : Thread nD τ).loc main_arg3)) :=
  s4_v26 m c (W4 m ρ c) ((keep13_v20 (W1 m ρ c)).trans (at1_v20 m ρ c))
theorem at6_v27 : W6 m ρ c (Proc.devRef .tc main_v27) = Cert.ReferenceIdeal.Read.val_main_v27 (F := Ideal) (m ((c : Thread nD τ).loc main_arg1)) (m ((c : Thread nD τ).loc main_arg3)) :=
  s5_v27 m c (W5 m ρ c) (at5_v26 m ρ c)
theorem at7_cst_7 : W7 m ρ c (Proc.devRef .tc main_cst_7) = Cert.ReferenceIdeal.Read.val_main_cst_7 (F := Ideal) :=
  s6_cst_7 (W6 m ρ c)
theorem at8_v28 : W8 m ρ c (Proc.devRef .tc main_v28) = Cert.ReferenceIdeal.Read.val_main_v28 (F := Ideal) (m ((c : Thread nD τ).loc main_arg1)) (m ((c : Thread nD τ).loc main_arg3)) :=
  s7_v28 m c (W7 m ρ c) (at7_cst_7 m ρ c) ((keep66_v27 (W6 m ρ c)).trans (at6_v27 m ρ c)) ((keep56_v26 (W5 m ρ c)).trans (at5_v26 m ρ c))

theorem pre_v1 : W9 m ρ c (Proc.devRef .tc main_v1) = Cert.ReferenceIdeal.Read.val_main_v1 (F := Ideal) (m ((c : Thread nD τ).loc main_arg1)) :=
  (keep88_v1 (W8 m ρ c)).trans ((keep17_v1 (W1 m ρ c)).trans (at1_v1 m ρ c))
theorem pre_v3 : W9 m ρ c (Proc.devRef .tc main_v3) = Cert.ReferenceIdeal.Read.val_main_v3 (F := Ideal) (m ((c : Thread nD τ).loc main_arg1)) :=
  (keep88_v3 (W8 m ρ c)).trans ((keep17_v3 (W1 m ρ c)).trans (at1_v3 m ρ c))
theorem pre_v43 : W9 m ρ c (Proc.devRef .tc main_v43) = Cert.ReferenceIdeal.Read.val_main_v43 (F := Ideal) (m ((c : Thread nD τ).loc main_arg1)) (m ((c : Thread nD τ).loc main_arg2)) (m ((c : Thread nD τ).loc main_arg3)) :=
  s8_v43 m c (W8 m ρ c) ((keep17_v1 (W1 m ρ c)).trans (at1_v1 m ρ c)) ((keep17_v3 (W1 m ρ c)).trans (at1_v3 m ρ c))
    ((keep47_v24 (W4 m ρ c)).trans (at4_v24 m ρ c)) (at8_v28 m ρ c)
theorem pre_v44 : W9 m ρ c (Proc.devRef .tc main_v44) = shapeCast S1x128 (m ((c : Thread nD τ).loc main_arg5)) shapeCasts_S128_S1x128 :=
  s8_v44 m c (W8 m ρ c) (keep07_arg5 (W0 m ρ c))

end Cert.KernelIdeal.Chain

end
-- ==== Proof.LibDense.lean ====
/-
  GENERAL LEMMAS: one dense layer, and the rectifier after it, read at an index on extended reals — in the two spellings a
  kernel and a host program give them. Nothing here mentions a program; the extents R (rows), K (contracted) and N
  (columns) are arbitrary.

  * affine, relu: a dense layer and the rectifier on ONE row, as plain functions Fin K → EReal ↦ Fin N → EReal.
  * ix2_of_val, ix1_of_val: an index with known coordinates is the index built from them.
  * contraction_rows: a contraction of axis 1 of an [R, K] array with axis 0 of a [K, N] array (no batch axes), read at
    (p, j), is the sum over k : Fin K of l (p, k) · r (k, j); the dimension record enters only through four coordinate
    facts about its operand indices (for a printed record: two by rfl-style unfolding, two by
    DotDims.lhsIdx_val_of_single / rhsIdx_val_of_single) and the rank and extent of its contraction shape (both rfl).
  * tile_affine: the kernel's spelling — tpu.matmul of the activations and weights, each rounded to bf16 on the way in
    (the identity on extended reals), into a zero accumulator, plus a [1, N] bias row cast to its own shape and broadcast
    down the R rows — at (p, j) is affine of row p.
  * host_affine: the host's spelling — dot_general plus an [N] bias vector broadcast to [1, N] and then to [R, N] — at
    (p, j) is affine of row p.
  * relu_tile, relu_host: a maximum against the zero word, splat from a scalar (kernel) or broadcast from a rank-0
    constant (host), at (p, j) is relu of row p.
  No law of extended-real arithmetic beyond reindexing a finite sum is used, so none of these needs finite inputs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx
open scoped BigOperators

/-- One dense layer on a row: j ↦ (∑ k, h k · W (k, j)) + b j. -/
def affine {K N : ℕ} (W : (⟨2, ![K, N]⟩ : Shape).Idx → EReal) (b : Fin N → EReal) (h : Fin K → EReal) : Fin N → EReal :=
  fun j => (∑ k : Fin K, h k * W (ix2 k j)) + b j

/-- The rectifier on a row: each entry's maximum with the value of the zero word (kept as the word: both programs
    print the same word, so it is never evaluated). -/
def relu {N : ℕ} (v : Fin N → EReal) : Fin N → EReal :=
  fun j => max (v j) (Ideal.ofBits .f32 0x00000000#32)

/-- A rank-2 index with known coordinates is the index built from them. -/
theorem ix2_of_val {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with a known coordinate is the index built from it. -/
theorem ix1_of_val {n : ℕ} (f : (⟨1, ![n]⟩ : Shape).Idx) (a : Fin n) (h0 : (f 0).val = a.val) : f = ix1 a :=
  funext fun d => Fin.ext (by
    match d with
    | ⟨0, _⟩ => exact h0)

/-- A contraction of axis 1 of an [R, K] array with axis 0 of a [K, N] array (no batch axes), read at (p, j), is the
    sum over k : Fin K of l (p, k) · r (k, j): the record's operand indices are named by hl0 ... hr1, and its one-axis
    contraction index is Fin K (contrEquiv1). -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![R, K]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 p k) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 p k :=
    ix2_of_val _ p k (hl0 _ _) ((hl1 _ _).trans hk)
  have er : d.rhsIdx (ix2 p j) ((contrEquiv1 d K hrank hsize).symm k) = ix2 k j :=
    ix2_of_val _ k j ((hr0 _ _).trans hk) (hr1 _ _)
  rw [el, er]

/-- ONE DENSE LAYER AS A KERNEL SPELLS IT, read at (p, j): the matrix unit's product of the activations and the weights
    (both rounded to bf16 on the way in: the identity here) into a zero accumulator, plus the bias, a [1, N] row cast to
    its own shape and broadcast down the R rows — is affine of the weights, the bias row and row p of the activations. -/
theorem tile_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨2, ![1, N]⟩ .f32)
    (hlt : FTy.bf16.bits < FTy.f32.bits)
    (hsc : (⟨2, ![1, N]⟩ : Shape).ShapeCasts ⟨2, ![1, N]⟩) (hbc : (⟨2, ![1, N]⟩ : Shape).Broadcasts ⟨2, ![R, N]⟩)
    (p : Fin R) (j : Fin N) :
    addf (matmul d none (truncf .bf16 h hlt) (truncf .bf16 W hlt) (constant (F := Ideal) ⟨2, ![R, N]⟩ .f32 0x00000000#32))
        (broadcastTo ⟨2, ![R, N]⟩ (shapeCast ⟨2, ![1, N]⟩ b hsc) hbc) (ix2 p j)
      = affine W (fun j => b (ix2 (0 : Fin 1) j)) (fun k => h (ix2 p k)) j := by
  rw [addf_apply, shapeCast_self, broadcastTo_1b_ab_apply]
  refine congrArg (· + b (ix2 (0 : Fin 1) j)) ?_
  refine (Ideal.matmul_constant_zero_apply d none (truncf .bf16 h hlt) (truncf .bf16 W hlt) (ix2 p j)).trans ?_
  exact contraction_rows d hrank hsize hl0 hl1 hr0 hr1 h W p j

/-- ONE DENSE LAYER AS THE HOST SPELLS IT, read at (p, j): dot_general of the activations and the weights plus the bias, an
    [N] vector broadcast to [1, N] and then down the R rows — is affine of the weights, the bias and row p. -/
theorem host_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin R) (j : Fin N) :
    addf (Host.dotGeneral d none h W)
        (broadcastInDim ⟨2, ![R, N]⟩ ![0, 1] hb2 (broadcastInDim ⟨2, ![1, N]⟩ ![1] hb1 b)) (ix2 p j)
      = affine W (fun j => b (ix1 j)) (fun k => h (ix2 p k)) j := by
  rw [addf_apply]
  have e2 : broadcastInDim ⟨2, ![R, N]⟩ ![0, 1] hb2 (broadcastInDim ⟨2, ![1, N]⟩ ![1] hb1 b) (ix2 p j)
      = broadcastInDim ⟨2, ![1, N]⟩ ![1] hb1 b (ix2 (0 : Fin 1) j) :=
    broadcastInDim_apply _ hb2 _ (ix2 p j) (ix2 (0 : Fin 1) j) (fun a => match a with
      | ⟨0, _⟩ => by show (0 : ℕ) = if (1 : ℕ) = 1 then 0 else p.val; rw [if_pos rfl]
      | ⟨1, _⟩ => by
        show j.val = if N = 1 then 0 else j.val
        split
        · have := j.isLt; omega
        · rfl)
  have e1 : broadcastInDim ⟨2, ![1, N]⟩ ![1] hb1 b (ix2 (0 : Fin 1) j) = b (ix1 j) :=
    broadcastInDim_apply _ hb1 b (ix2 (0 : Fin 1) j) (ix1 j) (fun a => match a with
      | ⟨0, _⟩ => by
        show j.val = if N = 1 then 0 else j.val
        split
        · have := j.isLt; omega
        · rfl)
  rw [e2, e1]
  refine congrArg (· + b (ix1 j)) ?_
  refine (Ideal.dotGeneral_apply d none .single h W (ix2 p j)).trans ?_
  exact contraction_rows d hrank hsize hl0 hl1 hr0 hr1 h W p j

/-- The rectifier as a kernel spells it: a maximum against the splat of the zero word, read at (p, j), is the rectifier of
    row p at j. -/
theorem relu_tile {R N : ℕ} (a : FVec Ideal ⟨2, ![R, N]⟩ .f32) (p : Fin R) (j : Fin N) :
    maximumf a (broadcast ⟨2, ![R, N]⟩ (Scalar.ofBits (F := Ideal) .f32 0x00000000#32)) (ix2 p j)
      = relu (fun j => a (ix2 p j)) j := rfl

/-- The rectifier as the host spells it: a maximum against the zero constant, a scalar broadcast to the whole shape, read
    at (p, j), is the rectifier of row p at j. -/
theorem relu_host {R N : ℕ} (a : FVec Ideal ⟨2, ![R, N]⟩ .f32) (hb : (⟨0, ![]⟩ : Shape).BroadcastsInDim ⟨2, ![R, N]⟩ ![])
    (p : Fin R) (j : Fin N) :
    maximumf a (broadcastInDim ⟨2, ![R, N]⟩ ![] hb (constant (F := Ideal) ⟨0, ![]⟩ .f32 0x00000000#32)) (ix2 p j)
      = relu (fun j => a (ix2 p j)) j := by
  rw [maximumf_apply, broadcastInDim_apply _ hb _ (ix2 p j) ix0 (fun a => a.elim0)]
  rfl

end Cert.Dense

end
-- ==== Proof.Layer.lean ====
/-
  One layer of the network as whole-array functions on extended reals, over arbitrary extents: a dense layer applied to
  every row of an [R, K] array (lin), the same followed by the rectifier (linRelu), and the rectified sum of two arrays
  (addRelu). Each is stated index by index through the row functions of the dense-layer lemmas: entry (p, j) of lin is
  (∑ k, h (p, k) · W (k, j)) + b j, and depends on row p of h only.
-/
import proofs.«175211_j77953656422746_1_alg».proof.Proof.LibDense

noncomputable section

namespace Cert.Layer

open Idealize.ShloMosaic Idealize.ShloMosaic.ValueIdx Cert.Dense

/-- A dense layer on every row: entry (p, j) is (∑ k, h (p, k) · W (k, j)) + b j. -/
def lin {R K N : ℕ} (h : (⟨2, ![R, K]⟩ : Shape).Idx → EReal) (W : (⟨2, ![K, N]⟩ : Shape).Idx → EReal) (b : Fin N → EReal) :
    (⟨2, ![R, N]⟩ : Shape).Idx → EReal :=
  fun i => affine W b (fun k => h (ix2 (i 0) k)) (i 1)

/-- A dense layer followed by the rectifier on every row. -/
def linRelu {R K N : ℕ} (h : (⟨2, ![R, K]⟩ : Shape).Idx → EReal) (W : (⟨2, ![K, N]⟩ : Shape).Idx → EReal) (b : Fin N → EReal) :
    (⟨2, ![R, N]⟩ : Shape).Idx → EReal :=
  fun i => relu (affine W b (fun k => h (ix2 (i 0) k))) (i 1)

/-- The rectified sum of two arrays, entry by entry. -/
def addRelu {R N : ℕ} (h z : (⟨2, ![R, N]⟩ : Shape).Idx → EReal) : (⟨2, ![R, N]⟩ : Shape).Idx → EReal :=
  fun i => max (h i + z i) (Ideal.ofBits .f32 0x00000000#32)

theorem lin_apply {R K N : ℕ} (h : (⟨2, ![R, K]⟩ : Shape).Idx → EReal) (W : (⟨2, ![K, N]⟩ : Shape).Idx → EReal) (b : Fin N → EReal)
    (p : Fin R) (j : Fin N) : lin h W b (ix2 p j) = affine W b (fun k => h (ix2 p k)) j := rfl

theorem linRelu_apply {R K N : ℕ} (h : (⟨2, ![R, K]⟩ : Shape).Idx → EReal) (W : (⟨2, ![K, N]⟩ : Shape).Idx → EReal) (b : Fin N → EReal)
    (p : Fin R) (j : Fin N) : linRelu h W b (ix2 p j) = relu (affine W b (fun k => h (ix2 p k))) j := rfl

theorem addRelu_apply {R N : ℕ} (h z : (⟨2, ![R, N]⟩ : Shape).Idx → EReal) (i : (⟨2, ![R, N]⟩ : Shape).Idx) :
    addRelu h z i = max (h i + z i) (Ideal.ofBits .f32 0x00000000#32) := rfl

end Cert.Layer

end
-- ==== Proof.Region0.lean ====
/-
  What region 0 of the program (the kernel launched first) leaves in its output array, as one function of the arrays it finds:
  a dense layer (activations times weights plus bias) followed by the rectifier, applied to every row.
  The 50000 rows are processed in 25 blocks of 2000; at each grid point the body multiplies the point's block of activations
  (rounded to bf16 on the way in: the identity on extended reals) by the whole weight matrix into a zero accumulator and
  adds the bias row, then takes the maximum with zero. Entry (p, q) of the tile at point t is therefore entry (2000 t + p, q) of the layer applied to the
  whole array, because entry (p, q) depends on row p of the block only; the 25 blocks tile the rows, so the array ends
  holding the layer of the whole array.
-/
import proofs.«175211_j77953656422746_1_alg».proof.Proof.Gen.KernelIdeal.Frame
import proofs.«175211_j77953656422746_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe

/-- The body's payload at entry (p, q) of its tile: the rectifier of the dense layer applied to row p of the activations'
    block, with the whole weight matrix and the bias row. The two operand roundings and the bias row's shape cast are
    identities on extended reals. -/
theorem pay0_at (x0 : Vec Ideal S2000x256 .f32) (x1 : Vec Ideal S256x128 .f32) (x2 : Vec Ideal S1x128 .f32)
    (p : Fin 2000) (q : Fin 128) :
    k0_pay1 x0 x1 x2 (ix2 p q)
      = Cert.Dense.relu (Cert.Dense.affine x1 (fun j => x2 (ix2 (0 : Fin 1) j)) (fun k => x0 (ix2 p k))) q := by
  unfold k0_pay1
  refine (Cert.Dense.relu_tile _ p q).trans ?_
  refine congrArg (fun v => Cert.Dense.relu v q) (funext fun j => ?_)
  exact Cert.Dense.tile_affine dot_S2000x256_S256x128_S2000x128_1_0_0_1_n_n rfl rfl
    (fun i q => by
      unfold DotDims.lhsIdx
      rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
      rfl)
    (fun i q => dot_S2000x256_S256x128_S2000x128_1_0_0_1_n_n.lhsIdx_val_of_single rfl i q)
    (fun i q => dot_S2000x256_S256x128_S2000x128_1_0_0_1_n_n.rhsIdx_val_of_single rfl i q)
    (fun i q => by
      unfold DotDims.rhsIdx
      rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
      rfl)
    x0 x1 x2 bitsLt_bf16_f32 shapeCasts_S1x128_S1x128 broadcasts_S1x128_S2000x128 p j

/-- A dense layer's entry depends on the weights, the bias and the row only through their values. -/
theorem affine_congr0 {K N : ℕ} (W W' : (⟨2, ![K, N]⟩ : Shape).Idx → EReal) (b b' : Fin N → EReal) (h h' : Fin K → EReal)
    (hW : ∀ k j, W (ix2 k j) = W' (ix2 k j)) (hb : ∀ j, b j = b' j) (hh : ∀ k, h k = h' k) (q : Fin N) :
    Cert.Dense.affine W b h q = Cert.Dense.affine W' b' h' q := by
  unfold Cert.Dense.affine
  rw [hb q]
  exact congrArg (· + b' q) (Finset.sum_congr rfl fun k _ => by rw [hh k, hW k q])

/-- The rectifier's entry q depends on entry q only. -/
theorem relu_congr0 {N : ℕ} (v v' : Fin N → EReal) (q : Fin N) (h : v q = v' q) : Cert.Dense.relu v q = Cert.Dense.relu v' q := by
  unfold Cert.Dense.relu
  rw [h]

theorem hz0 : (![0, 0] : Fin 2 → Nat) = fun _ => 0 := funext fun a => by fin_cases a <;> rfl

/-- The windows' block indices over the grid: the activations' and the output's blocks move down the rows with the grid
    point; the weight matrix and the bias row stay whole. -/
theorem idx0 : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, _)

variable (V : (c : Dev nD) → (b : Ref sig .tc) → Buf (Elt Ideal) ((c : Thread nD τ).loc b))

/-- Window 0's block at point t is rows 2000 t … 2000 t + 1999 of the activations, all 256 columns. -/
theorem blk0_0 (c : Dev nD) (t : Fin cfg0.N) (p : Fin 2000) (k : Fin 256) (r : Fin 50000) (hr : r.val = t.val * 2000 + p.val) :
    iblk0 V c 0 t (ix2 p k) = V c (Pipeline.arrRef spec0 0) (ix2 r k) := by
  obtain ⟨e0, e1, -⟩ := idx0 t
  unfold iblk0
  rw [View.read_apply]
  show V c (Pipeline.arrRef spec0 0) (((cfg0.win 0).blk t).view.emb (ix2 p k)) = _
  refine congrArg _ ?_
  funext a
  apply Fin.ext
  match a with
  | ⟨0, _⟩ => show win0_0.index t 0 * 2000 + 1 * p.val = r.val; rw [e0, hr]; omega
  | ⟨1, _⟩ => show win0_0.index t 1 * 256 + 1 * k.val = k.val; rw [e1]; omega

/-- Window 1's block at every point is the whole weight matrix. -/
theorem blk0_1 (c : Dev nD) (t : Fin cfg0.N) (k : Fin 256) (j : Fin 128) :
    iblk0 V c 1 t (ix2 k j) = V c (Pipeline.arrRef spec0 1) (ix2 k j) := by
  obtain ⟨-, -, e0, e1, -⟩ := idx0 t
  unfold iblk0
  rw [View.read_apply]
  show V c (Pipeline.arrRef spec0 1) (((cfg0.win 1).blk t).view.emb (ix2 k j)) = _
  refine congrArg _ ?_
  funext a
  apply Fin.ext
  match a with
  | ⟨0, _⟩ => show win0_1.index t 0 * 256 + 1 * k.val = k.val; rw [e0]; omega
  | ⟨1, _⟩ => show win0_1.index t 1 * 128 + 1 * j.val = j.val; rw [e1]; omega

/-- Window 2's block at every point is the whole bias row. -/
theorem blk0_2 (c : Dev nD) (t : Fin cfg0.N) (z : Fin 1) (j : Fin 128) :
    iblk0 V c 2 t (ix2 z j) = V c (Pipeline.arrRef spec0 2) (ix2 z j) := by
  obtain ⟨-, -, -, -, e0, e1, -⟩ := idx0 t
  unfold iblk0
  rw [View.read_apply]
  show V c (Pipeline.arrRef spec0 2) (((cfg0.win 2).blk t).view.emb (ix2 z j)) = _
  refine congrArg _ ?_
  funext a
  apply Fin.ext
  match a with
  | ⟨0, _⟩ => show win0_2.index t 0 * 1 + 1 * z.val = z.val; rw [e0]; omega
  | ⟨1, _⟩ => show win0_2.index t 1 * 128 + 1 * j.val = j.val; rw [e1]; omega

/-- Entry (p, q) of the output's block at point t sits at row 2000 t + p, column q of the array. -/
theorem emb0_3 (t : Fin cfg0.N) (p : Fin 2000) (q : Fin 128) (r : Fin 50000) (hr : r.val = t.val * 2000 + p.val) :
    ((cfg0.win 3).blk t).view.emb (ix2 p q) = ix2 r q := by
  obtain ⟨-, -, -, -, -, -, e0, e1⟩ := idx0 t
  funext a
  apply Fin.ext
  match a with
  | ⟨0, _⟩ => show win0_3.index t 0 * 2000 + 1 * p.val = r.val; rw [e0, hr]; omega
  | ⟨1, _⟩ => show win0_3.index t 1 * 128 + 1 * q.val = q.val; rw [e1]; omega

/-- The tile the body stores at point t, at entry (p, q), is the rectified dense layer of the whole arrays at row
    2000 t + p: the activations' block holds rows 2000 t … 2000 t + 1999, and the other two windows hold the whole weight
    matrix and the whole bias row. -/
theorem tile0 (c : Dev nD) (t : Fin cfg0.N) (p : Fin 2000) (q : Fin 128) (r : Fin 50000) (hr : r.val = t.val * 2000 + p.val) :
    k0_pay1 (iblk0 V c 0 t) (iblk0 V c 1 t) (iblk0 V c 2 t) (ix2 p q)
      = Cert.Layer.linRelu (V c (Pipeline.arrRef spec0 0)) (V c (Pipeline.arrRef spec0 1)) (fun j => V c (Pipeline.arrRef spec0 2) (ix2 (0 : Fin 1) j)) (ix2 r q) :=
  ((pay0_at (iblk0 V c 0 t) (iblk0 V c 1 t) (iblk0 V c 2 t) p q).trans
    (relu_congr0 _ _ q (affine_congr0 _ _ _ _ _ _ (fun k j => blk0_1 V c t k j) (fun j => blk0_2 V c t 0 j)
      (fun k => blk0_0 V c t p k r hr) q))).trans
    (Cert.Layer.linRelu_apply _ _ _ r q).symm

/-- The output buffer after the body is the payload of the loaded blocks: the one store covers the whole tile, and the
    loads read whole blocks. -/
theorem stored0 (x0 : Vec Ideal S2000x256 .f32) (x1 : Vec Ideal S256x128 .f32) (x2 : Vec Ideal S1x128 .f32) :
    out0_3 x0 x1 x2 = k0_pay1 x0 x1 x2 := by
  unfold out0_3
  rw [View.canon_unit_zero hz0]
  simp only [View.ld_unit_zero (S := S2000x256) hz0, View.ld_unit_zero (S := S256x128) hz0, View.ld_unit_zero (S := S1x128) hz0]

/-- The same tile, read where the output's block at point t sits in the array. -/
theorem tile_at0 (c : Dev nD) (t : Fin cfg0.N) (p : Fin 2000) (q : Fin 128) :
    k0_pay1 (iblk0 V c 0 t) (iblk0 V c 1 t) (iblk0 V c 2 t) (ix2 p q)
      = Cert.Layer.linRelu (V c (Pipeline.arrRef spec0 0)) (V c (Pipeline.arrRef spec0 1)) (fun j => V c (Pipeline.arrRef spec0 2) (ix2 (0 : Fin 1) j))
          (((cfg0.win 3).blk t).view.emb (ix2 p q)) := by
  have hN : cfg0.N = 25 := N_0
  have hr : t.val * 2000 + p.val < 50000 := by have := t.isLt; have := p.isLt; omega
  rw [emb0_3 t p q ⟨t.val * 2000 + p.val, hr⟩ rfl]
  exact tile0 V c t p q ⟨t.val * 2000 + p.val, hr⟩ rfl

/-- WHAT POINT t WRITES BACK is block t of the rectified dense layer of the arrays the region finds. -/
theorem flushed0 (c : Dev nD) (t : Fin cfg0.N) :
    (dat0 (F := Ideal) V c).flushed 3 t = ((cfg0.win 3).blk t).view.read (Elt Ideal)
      (Cert.Layer.linRelu (V c (Pipeline.arrRef spec0 0)) (V c (Pipeline.arrRef spec0 1)) (fun j => V c (Pipeline.arrRef spec0 2) (ix2 (0 : Fin 1) j))) := by
  show (cfg0.win 3).cut (grid0.coords t) ((dat0 V c).after 3 t) = _
  rw [after0_3, stored0]
  funext y
  obtain ⟨p, q, rfl⟩ : ∃ (p : Fin 2000) (q : Fin 128), y = ix2 p q := ⟨y 0, y 1, eq_ix2 y⟩
  exact tile_at0 V c t p q

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v45).slice (win0_3.rect t)).set ↔ _
  rw [View.set_slice_whole, Rect.mem_set_unit]
  exact Iff.rfl

/-- The 25 blocks of 2000 rows tile the 50000 rows: row r is in the block of point r / 2000, and every point writes back. -/
theorem cover0 (i : S50000x128.Idx) : ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, e0, e1⟩ := idx0 t
  refine ⟨t, flush0_3 t, ?_⟩
  rw [mem_blk0]
  intro a
  match a with
  | ⟨0, _⟩ => show win0_3.index t 0 * 2000 ≤ (i 0).val ∧ (i 0).val < win0_3.index t 0 * 2000 + 2000; rw [e0, ht]; omega
  | ⟨1, _⟩ => show win0_3.index t 1 * 128 ≤ (i 1).val ∧ (i 1).val < win0_3.index t 1 * 128 + 128; rw [e1]; omega

/-- REGION 0 leaves in its output array the rectified dense layer of the arrays it finds: every row of the activations
    times the weight matrix, plus the bias row, then the maximum with zero. -/
theorem region0 (c : Dev nD) : (dat0 (F := Ideal) V c).arrAt 3 cfg0.N = Cert.Layer.linRelu (V c (Pipeline.arrRef spec0 0)) (V c (Pipeline.arrRef spec0 1)) (fun j => V c (Pipeline.arrRef spec0 2) (ix2 (0 : Fin 1) j)) :=
  (dat0 (F := Ideal) V c).arrAt_eq_of_cover 3 _ (fun t _ => flushed0 V c t) cover0

end Cert.KernelIdeal.RegionValue

end
-- ==== Proof.Region1.lean ====
/-
  What region 1 of the program (the kernel launched second) leaves in its output array, as one function of the arrays it finds:
  a dense layer (activations times weights plus bias) applied to every row.
  The 50000 rows are processed in 25 blocks of 2000; at each grid point the body multiplies the point's block of activations
  (rounded to bf16 on the way in: the identity on extended reals) by the whole weight matrix into a zero accumulator and
  adds the bias row. Entry (p, q) of the tile at point t is therefore entry (2000 t + p, q) of the layer applied to the
  whole array, because entry (p, q) depends on row p of the block only; the 25 blocks tile the rows, so the array ends
  holding the layer of the whole array.
-/
import proofs.«175211_j77953656422746_1_alg».proof.Proof.Gen.KernelIdeal.Frame
import proofs.«175211_j77953656422746_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe

/-- The body's payload at entry (p, q) of its tile: the dense layer applied to row p of the activations' block, with the
    whole weight matrix and the bias row. The two operand roundings and the shape casts are identities on extended reals. -/
theorem pay1_at (x0 : Vec Ideal S2000x128 .f32) (x1 : Vec Ideal S128x128 .f32) (x2 : Vec Ideal S1x128 .f32)
    (p : Fin 2000) (q : Fin 128) :
    k1_pay1 x0 x1 x2 (ix2 p q) = Cert.Dense.affine x1 (fun j => x2 (ix2 (0 : Fin 1) j)) (fun k => x0 (ix2 p k)) q := by
  unfold k1_pay1
  rw [shapeCast_self, shapeCast_self]
  exact Cert.Dense.tile_affine dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
    x0 x1 x2 bitsLt_bf16_f32 shapeCasts_S1x128_S1x128 broadcasts_S1x128_S2000x128 p q

/-- A dense layer's entry depends on the weights, the bias and the row only through their values. -/
theorem affine_congr1 {K N : ℕ} (W W' : (⟨2, ![K, N]⟩ : Shape).Idx → EReal) (b b' : Fin N → EReal) (h h' : Fin K → EReal)
    (hW : ∀ k j, W (ix2 k j) = W' (ix2 k j)) (hb : ∀ j, b j = b' j) (hh : ∀ k, h k = h' k) (q : Fin N) :
    Cert.Dense.affine W b h q = Cert.Dense.affine W' b' h' q := by
  unfold Cert.Dense.affine
  rw [hb q]
  exact congrArg (· + b' q) (Finset.sum_congr rfl fun k _ => by rw [hh k, hW k q])

theorem hz1 : (![0, 0] : Fin 2 → Nat) = fun _ => 0 := funext fun a => by fin_cases a <;> rfl

/-- The windows' block indices over the grid: the activations' and the output's blocks move down the rows with the grid
    point; the weight matrix and the bias row stay whole. -/
theorem idx1 : ∀ t : Fin cfg1.N, win1_0.index t 0 = t.val ∧ win1_0.index t 1 = 0 ∧ win1_1.index t 0 = 0 ∧ win1_1.index t 1 = 0
    ∧ win1_2.index t 0 = 0 ∧ win1_2.index t 1 = 0 ∧ win1_3.index t 0 = t.val ∧ win1_3.index t 1 = 0 :=
  (by decide +kernel : ∀ t : Fin grid1.N, _)

variable (V : (c : Dev nD) → (b : Ref sig .tc) → Buf (Elt Ideal) ((c : Thread nD τ).loc b))

/-- Window 0's block at point t is rows 2000 t … 2000 t + 1999 of the activations, all 128 columns. -/
theorem blk1_0 (c : Dev nD) (t : Fin cfg1.N) (p : Fin 2000) (k : Fin 128) (r : Fin 50000) (hr : r.val = t.val * 2000 + p.val) :
    iblk1 V c 0 t (ix2 p k) = V c (Pipeline.arrRef spec1 0) (ix2 r k) := by
  obtain ⟨e0, e1, -⟩ := idx1 t
  unfold iblk1
  rw [View.read_apply]
  show V c (Pipeline.arrRef spec1 0) (((cfg1.win 0).blk t).view.emb (ix2 p k)) = _
  refine congrArg _ ?_
  funext a
  apply Fin.ext
  match a with
  | ⟨0, _⟩ => show win1_0.index t 0 * 2000 + 1 * p.val = r.val; rw [e0, hr]; omega
  | ⟨1, _⟩ => show win1_0.index t 1 * 128 + 1 * k.val = k.val; rw [e1]; omega

/-- Window 1's block at every point is the whole weight matrix. -/
theorem blk1_1 (c : Dev nD) (t : Fin cfg1.N) (k : Fin 128) (j : Fin 128) :
    iblk1 V c 1 t (ix2 k j) = V c (Pipeline.arrRef spec1 1) (ix2 k j) := by
  obtain ⟨-, -, e0, e1, -⟩ := idx1 t
  unfold iblk1
  rw [View.read_apply]
  show V c (Pipeline.arrRef spec1 1) (((cfg1.win 1).blk t).view.emb (ix2 k j)) = _
  refine congrArg _ ?_
  funext a
  apply Fin.ext
  match a with
  | ⟨0, _⟩ => show win1_1.index t 0 * 128 + 1 * k.val = k.val; rw [e0]; omega
  | ⟨1, _⟩ => show win1_1.index t 1 * 128 + 1 * j.val = j.val; rw [e1]; omega

/-- Window 2's block at every point is the whole bias row. -/
theorem blk1_2 (c : Dev nD) (t : Fin cfg1.N) (z : Fin 1) (j : Fin 128) :
    iblk1 V c 2 t (ix2 z j) = V c (Pipeline.arrRef spec1 2) (ix2 z j) := by
  obtain ⟨-, -, -, -, e0, e1, -⟩ := idx1 t
  unfold iblk1
  rw [View.read_apply]
  show V c (Pipeline.arrRef spec1 2) (((cfg1.win 2).blk t).view.emb (ix2 z j)) = _
  refine congrArg _ ?_
  funext a
  apply Fin.ext
  match a with
  | ⟨0, _⟩ => show win1_2.index t 0 * 1 + 1 * z.val = z.val; rw [e0]; omega
  | ⟨1, _⟩ => show win1_2.index t 1 * 128 + 1 * j.val = j.val; rw [e1]; omega

/-- Entry (p, q) of the output's block at point t sits at row 2000 t + p, column q of the array. -/
theorem emb1_3 (t : Fin cfg1.N) (p : Fin 2000) (q : Fin 128) (r : Fin 50000) (hr : r.val = t.val * 2000 + p.val) :
    ((cfg1.win 3).blk t).view.emb (ix2 p q) = ix2 r q := by
  obtain ⟨-, -, -, -, -, -, e0, e1⟩ := idx1 t
  funext a
  apply Fin.ext
  match a with
  | ⟨0, _⟩ => show win1_3.index t 0 * 2000 + 1 * p.val = r.val; rw [e0, hr]; omega
  | ⟨1, _⟩ => show win1_3.index t 1 * 128 + 1 * q.val = q.val; rw [e1]; omega

/-- The tile the body stores at point t, at entry (p, q), is the dense layer of the whole arrays at row 2000 t + p: the
    activations' block holds rows 2000 t … 2000 t + 1999, and the other two windows hold the whole weight matrix and the
    whole bias row. -/
theorem tile1 (c : Dev nD) (t : Fin cfg1.N) (p : Fin 2000) (q : Fin 128) (r : Fin 50000) (hr : r.val = t.val * 2000 + p.val) :
    k1_pay1 (iblk1 V c 0 t) (iblk1 V c 1 t) (iblk1 V c 2 t) (ix2 p q)
      = Cert.Layer.lin (V c (Pipeline.arrRef spec1 0)) (V c (Pipeline.arrRef spec1 1)) (fun j => V c (Pipeline.arrRef spec1 2) (ix2 (0 : Fin 1) j)) (ix2 r q) :=
  ((pay1_at (iblk1 V c 0 t) (iblk1 V c 1 t) (iblk1 V c 2 t) p q).trans
    (affine_congr1 _ _ _ _ _ _ (fun k j => blk1_1 V c t k j) (fun j => blk1_2 V c t 0 j) (fun k => blk1_0 V c t p k r hr) q)).trans
    (Cert.Layer.lin_apply _ _ _ r q).symm

/-- The output buffer after the body is the payload of the loaded blocks: the one store covers the whole tile, and the
    loads read whole blocks. -/
theorem stored1 (x0 : Vec Ideal S2000x128 .f32) (x1 : Vec Ideal S128x128 .f32) (x2 : Vec Ideal S1x128 .f32) :
    out1_3 x0 x1 x2 = k1_pay1 x0 x1 x2 := by
  unfold out1_3
  rw [View.canon_unit_zero hz1]
  simp only [View.ld_unit_zero (S := S2000x128) hz1, View.ld_unit_zero (S := S128x128) hz1, View.ld_unit_zero (S := S1x128) hz1]

/-- The same tile, read where the output's block at point t sits in the array. -/
theorem tile_at1 (c : Dev nD) (t : Fin cfg1.N) (p : Fin 2000) (q : Fin 128) :
    k1_pay1 (iblk1 V c 0 t) (iblk1 V c 1 t) (iblk1 V c 2 t) (ix2 p q)
      = Cert.Layer.lin (V c (Pipeline.arrRef spec1 0)) (V c (Pipeline.arrRef spec1 1)) (fun j => V c (Pipeline.arrRef spec1 2) (ix2 (0 : Fin 1) j))
          (((cfg1.win 3).blk t).view.emb (ix2 p q)) := by
  have hN : cfg1.N = 25 := N_1
  have hr : t.val * 2000 + p.val < 50000 := by have := t.isLt; have := p.isLt; omega
  rw [emb1_3 t p q ⟨t.val * 2000 + p.val, hr⟩ rfl]
  exact tile1 V c t p q ⟨t.val * 2000 + p.val, hr⟩ rfl

/-- WHAT POINT t WRITES BACK is block t of the dense layer of the arrays the region finds. -/
theorem flushed1 (c : Dev nD) (t : Fin cfg1.N) :
    (dat1 (F := Ideal) V c).flushed 3 t = ((cfg1.win 3).blk t).view.read (Elt Ideal)
      (Cert.Layer.lin (V c (Pipeline.arrRef spec1 0)) (V c (Pipeline.arrRef spec1 1)) (fun j => V c (Pipeline.arrRef spec1 2) (ix2 (0 : Fin 1) j))) := by
  show (cfg1.win 3).cut (grid1.coords t) ((dat1 V c).after 3 t) = _
  rw [after1_3, stored1]
  funext y
  obtain ⟨p, q, rfl⟩ : ∃ (p : Fin 2000) (q : Fin 128), y = ix2 p q := ⟨y 0, y 1, eq_ix2 y⟩
  exact tile_at1 V c t p q

/-- An index of the output array is in point t's block iff each coordinate is in the block's range on its axis. -/
theorem mem_blk1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v60).slice (win1_3.rect t)).set ↔ _
  rw [View.set_slice_whole, Rect.mem_set_unit]
  exact Iff.rfl

/-- The 25 blocks of 2000 rows tile the 50000 rows: row r is in the block of point r / 2000, and every point writes back. -/
theorem cover1 (i : S50000x128.Idx) : ∃ t : Fin cfg1.N, (cfg1.win 3).flush t = true ∧ i ∈ ((cfg1.win 3).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, e0, e1⟩ := idx1 t
  refine ⟨t, flush1_3 t, ?_⟩
  rw [mem_blk1]
  intro a
  match a with
  | ⟨0, _⟩ => show win1_3.index t 0 * 2000 ≤ (i 0).val ∧ (i 0).val < win1_3.index t 0 * 2000 + 2000; rw [e0, ht]; omega
  | ⟨1, _⟩ => show win1_3.index t 1 * 128 ≤ (i 1).val ∧ (i 1).val < win1_3.index t 1 * 128 + 128; rw [e1]; omega

/-- REGION 1 leaves in its output array the dense layer of the arrays it finds: every row of the activations times the
    weight matrix, plus the bias row. -/
theorem region1 (c : Dev nD) : (dat1 (F := Ideal) V c).arrAt 3 cfg1.N = Cert.Layer.lin (V c (Pipeline.arrRef spec1 0)) (V c (Pipeline.arrRef spec1 1)) (fun j => V c (Pipeline.arrRef spec1 2) (ix2 (0 : Fin 1) j)) :=
  (dat1 (F := Ideal) V c).arrAt_eq_of_cover 3 _ (fun t _ => flushed1 V c t) cover1

end Cert.KernelIdeal.RegionValue

end
-- ==== Proof.Region2.lean ====
/-
  What pallas_call 2 ('h = relu (h + z)', 25 grid points over the 50000 rows) leaves in its output array, as one
  function of the two arrays it finds: entry i of the output is max (h i + z i) 0.

  Every window of the call — the two inputs and the output — takes block (t, 0) of a [50000, 128] array at grid
  point t, a block of 2000 rows by all 128 columns. Element y of the block of point t therefore sits at row
  t * 2000 + y 0, column y 1 of its array, for all three windows alike; the body adds the two loaded blocks entry by
  entry, takes the maximum with zero and stores the whole block. So what point t writes back is block t of the
  rectified sum of the two input arrays, and since row r lies in the block of point r / 2000 (and 25 * 2000 = 50000),
  the blocks fill the array: it ends holding the rectified sum everywhere.
-/
import proofs.«175211_j77953656422746_1_alg».proof.Proof.Gen.KernelIdeal.Frame
import proofs.«175211_j77953656422746_1_alg».proof.Proof.Layer
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe

/-- The store's rectangle starts at the origin of the block. -/
theorem origin2 : (![0, 0] : Fin 2 → Nat) = fun _ => 0 := funext fun a => by fin_cases a <;> rfl

/-- The body's arithmetic on the two loaded blocks, entry by entry: the two entries added, then the maximum with the
    value of the zero word (the two shape casts are casts of a shape to itself). -/
theorem addRelu_entry2 (x0 x1 : Vec Ideal S2000x128 .f32) :
    k2_pay1 x0 x1 = fun y => max (x0 y + x1 y) (Ideal.ofBits .f32 0x00000000#32) := by
  unfold k2_pay1
  simp only [shapeCast_self]
  rfl

/-- The three windows' block indices, decided over the 25 grid points: the inputs move with the output, whose block
    row is the point's number and whose block column is 0. -/
theorem block_index2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val
    ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the rectified sum of the two input arrays as the call finds them:
    each input's block holds its array's entries at exactly the places the output's block names. -/
theorem written_back2 (c : Dev nD) (t : Fin cfg2.N) :
    (dat2 (F := Ideal) V c).flushed 2 t = ((cfg2.win 2).blk t).view.read (Elt Ideal)
      (Cert.Layer.addRelu (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero origin2]
  simp only [View.ld_unit_zero (S := S2000x128) origin2]
  rw [addRelu_entry2]
  obtain ⟨e0, e1, e2, e3, e4, e5⟩ := block_index2 t
  funext j
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 128 + 1 * (j 1).val = win2_2.index t (1 : Fin 2) * 128 + 1 * (j 1).val; omega
  have same_place : ∀ A0 A1 : S50000x128.Idx → EReal,
      max (A0 (((cfg2.win 0).blk t).view.emb j) + A1 (((cfg2.win 1).blk t).view.emb j)) (Ideal.ofBits .f32 0x00000000#32)
        = Cert.Layer.addRelu A0 A1 (((cfg2.win 2).blk t).view.emb j) := fun A0 A1 => by rw [h0, h1]; rfl
  exact same_place (V c (Pipeline.arrRef spec2 0)) (V c (Pipeline.arrRef spec2 1))

/-- An entry of the output array is in point t's block iff each coordinate is in the block's range on its axis. -/
theorem in_block2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v87).slice (win2_2.rect t)).set ↔ _
  rw [View.set_slice_whole, Rect.mem_set_unit]
  exact Iff.rfl

/-- The blocks fill the array: row r is in the block of point r / 2000. -/
theorem blocks_fill2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e0, e1, e2, e3, e4, e5⟩ := block_index2 t
  have e4' : win2_2.index t (0 : Fin 2) = (i 0).val / 2000 := e4
  refine ⟨t, flush2_2 t, ?_⟩
  rw [in_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- THE OUTPUT ARRAY after the call: the rectified sum of the two input arrays as the call finds them. -/
theorem region2 (c : Dev nD) : (dat2 (F := Ideal) V c).arrAt 2 cfg2.N = Cert.Layer.addRelu (V c (Pipeline.arrRef spec2 0)) (V c (Pipeline.arrRef spec2 1)) :=
  (dat2 (F := Ideal) V c).arrAt_eq_of_cover 2 _ (fun t _ => written_back2 V c t) (blocks_fill2)

end Cert.KernelIdeal.RegionValue

end
-- ==== Proof.HostDense.lean ====
/-
  The three layer functions as the host program spells them, each equal as a whole array to its index-by-index form:
  * the input layer: dot_general of the [50000, 256] features with the [256, 128] weights, plus the bias (a [128] vector
    broadcast to [1, 128] and then down the 50000 rows), then the maximum with the zero constant broadcast from a scalar
    — entry (p, j) is max ((∑ k, x (p, k) · W (k, j)) + b j) 0;
  * a hidden layer's dense part: the same without the maximum, over [50000, 128] activations and [128, 128] weights;
  * the rectified sum of two [50000, 128] arrays, entry by entry.
  Each is read at an index (p, j) by the dense-layer lemmas; the contraction's dimension record enters only through
  where it reads its operands: the left at (p, k), the right at (k, j), k the one contraction index.
-/
import proofs.«175211_j77953656422746_1_alg».proof.ReferenceIdeal
import proofs.«175211_j77953656422746_1_alg».proof.Proof.Gen.ReferenceIdeal
import proofs.«175211_j77953656422746_1_alg».proof.Proof.Layer
import Idealize.ShloMosaic.Lib.ValueIdx

noncomputable section

namespace Cert.ReferenceIdeal.HostDense

open Cert.ReferenceIdeal Cert.ReferenceIdeal.Gen Idealize.ShloMosaic Idealize.ShloMosaic.ValueIdx

/-- Operand coordinates of the contraction of axis 1 of an [50000, 256] array with axis 0 of a [256, 128] array: the left
    operand is read at (row of the result, contraction index), the right at (contraction index, column of the result). -/
theorem lhs_row256 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem lhs_contr256 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem rhs_contr256 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem rhs_col256 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- Operand coordinates of the contraction of axis 1 of an [50000, 128] array with axis 0 of a [128, 128] array: the left
    operand is read at (row of the result, contraction index), the right at (contraction index, column of the result). -/
theorem lhs_row128 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_contr128 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_contr128 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_col128 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- THE INPUT LAYER as the host spells it is the dense layer followed by the rectifier on every row. -/
theorem fc_eq (x : FVec Ideal S50000x256 .f32) (W : FVec Ideal S256x128 .f32) (b : FVec Ideal S128 .f32) :
    maximumf (addf (Host.dotGeneral dot_S50000x256_S256x128_S50000x128_1_0_0_1_n_n none x W) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))
      = Cert.Layer.linRelu x W (fun j => b (ix1 j)) := by
  funext i
  obtain ⟨p, j, rfl⟩ : ∃ (p : Fin 50000) (j : Fin 128), i = ix2 p j := ⟨i 0, i 1, eq_ix2 i⟩
  rw [Cert.Layer.linRelu_apply]
  refine (Cert.Dense.relu_host _ bcast_S_S50000x128 p j).trans ?_
  refine congrArg (fun v => Cert.Dense.relu v j) (funext fun j' => ?_)
  exact Cert.Dense.host_affine dot_S50000x256_S256x128_S50000x128_1_0_0_1_n_n rfl rfl lhs_row256 lhs_contr256 rhs_contr256 rhs_col256 x W b
    bcast_S128_S1x128_1 bcast_S1x128_S50000x128_0_1 p j'

/-- A HIDDEN LAYER'S DENSE PART as the host spells it is the dense layer on every row. -/
theorem lin_eq (h : FVec Ideal S50000x128 .f32) (W : FVec Ideal S128x128 .f32) (b : FVec Ideal S128 .f32) :
    addf (Host.dotGeneral dot_S50000x128_S128x128_S50000x128_1_0_0_1_n_n none h W) (broadcastInDim S50000x128 ![0, 1] bcast_S1x128_S50000x128_0_1 (broadcastInDim S1x128 ![1] bcast_S128_S1x128_1 b))
      = Cert.Layer.lin h W (fun j => b (ix1 j)) := by
  funext i
  obtain ⟨p, j, rfl⟩ : ∃ (p : Fin 50000) (j : Fin 128), i = ix2 p j := ⟨i 0, i 1, eq_ix2 i⟩
  rw [Cert.Layer.lin_apply]
  exact Cert.Dense.host_affine dot_S50000x128_S128x128_S50000x128_1_0_0_1_n_n rfl rfl lhs_row128 lhs_contr128 rhs_contr128 rhs_col128 h W b
    bcast_S128_S1x128_1 bcast_S1x128_S50000x128_0_1 p j

/-- THE RECTIFIED SUM as the host spells it: the entries added, then the maximum with the zero constant. -/
theorem addRelu_eq (h z : FVec Ideal S50000x128 .f32) :
    maximumf (addf h z) (broadcastInDim S50000x128 ![] bcast_S_S50000x128 (constant (F := Ideal) S_ .f32 0x00000000#32)) = Cert.Layer.addRelu h z := by
  funext i
  rw [Cert.Layer.addRelu_apply, maximumf_apply, addf_apply, broadcastInDim_apply _ bcast_S_S50000x128 _ i ix0 (fun a => a.elim0)]
  rfl

end Cert.ReferenceIdeal.HostDense

end
-- ==== Proof.ChainA.lean ====
/- The kernel program's buffers, boundary by boundary, against the reference's stages: up to the end of the first hidden layer.
  When the first pallas_call is entered the arguments are as launched and the shared preamble (the incidence's row and column
  indices, the degree normalisation) is the reference's, operation for operation (Pre). The input layer's call leaves
  max (x · W + b) 0, the reference's dot_general + bias + maximum (the dense-layer lemmas). The host stretch after it computes the
  two per-incidence scales, the second as w[col] · (e · norm) where the reference writes (w[col] · e) · norm: one product of
  three extended reals, associated differently. Then a hidden layer: the dense call is the reference's dot_general + bias; the
  gather / scale / scatter-add stretch is the reference's own operations on operands already known equal; the rectified sum is
  the reference's maximum of the sum with zero. A buffer that a stretch or a call does not write is carried across it.
-/
import proofs.«175211_j77953656422746_1_alg».proof.Proof.Gen.KernelIdeal.Frame
import proofs.«175211_j77953656422746_1_alg».proof.Proof.Gen.ReferenceIdeal.Read
import proofs.«175211_j77953656422746_1_alg».proof.Proof.Region0
import proofs.«175211_j77953656422746_1_alg».proof.Proof.Region1
import proofs.«175211_j77953656422746_1_alg».proof.Proof.Region2
import proofs.«175211_j77953656422746_1_alg».proof.Proof.HostDense
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- What the first pallas_call finds: the arguments as launched, the incidence's row and column indices and the normalisation
    product at the reference's stages, and the input layer's bias reshaped to a [1, 128] row. -/
structure Pre (V : Valuation τ sig (Elt Ideal)) : Prop where
  arg0 : V (Proc.devRef .tc main_arg0) = arg m c main_arg0
  arg1 : V (Proc.devRef .tc main_arg1) = arg m c main_arg1
  arg2 : V (Proc.devRef .tc main_arg2) = arg m c main_arg2
  arg3 : V (Proc.devRef .tc main_arg3) = arg m c main_arg3
  arg4 : V (Proc.devRef .tc main_arg4) = arg m c main_arg4
  arg5 : V (Proc.devRef .tc main_arg5) = arg m c main_arg5
  arg6 : V (Proc.devRef .tc main_arg6) = arg m c main_arg6
  arg7 : V (Proc.devRef .tc main_arg7) = arg m c main_arg7
  v1 : V (Proc.devRef .tc main_v1) = Cert.ReferenceIdeal.Read.val_main_v1 (F := Ideal) (arg m c main_arg1)
  v3 : V (Proc.devRef .tc main_v3) = Cert.ReferenceIdeal.Read.val_main_v3 (F := Ideal) (arg m c main_arg1)
  v43 : V (Proc.devRef .tc main_v43) = Cert.ReferenceIdeal.Read.val_main_v43 (F := Ideal) (arg m c main_arg1) (arg m c main_arg2) (arg m c main_arg3)
  v44 : V (Proc.devRef .tc main_v44) = shapeCast S1x128 (arg m c main_arg5) shapeCasts_S128_S1x128

/-- A [128] vector reshaped to a [1, 128] row, read along the row, is the vector. -/
theorem row_of_reshape (b : FVec Ideal S128 .f32) :
    (fun j : Fin 128 => shapeCast S1x128 b shapeCasts_S128_S1x128 (ix2 (0 : Fin 1) j)) = fun j => b (ix1 j) :=
  funext fun j => shapeCast_a_1a_apply b shapeCasts_S128_S1x128 0 j

/-- A product of three arrays, entry by entry, does not depend on how it is associated. -/
theorem mulf_assoc {s : Shape} (a b d : FVec Ideal s .f32) : mulf a (mulf b d) = mulf (mulf a b) d :=
  funext fun i => (mul_assoc (a i) (b i) (d i)).symm

variable (hp : Pre m c (W9 m ρ c))
include hp

/-! ## After the input layer's call -/

theorem w10_v45 : W10 m ρ c (Proc.devRef .tc main_v45) = Cert.ReferenceIdeal.Read.val_main_v48 (F := Ideal) (arg m c main_arg0) (arg m c main_arg4) (arg m c main_arg5) := by
  refine (W10_arr m ρ c 3).trans ?_
  rw [RegionValue.region0 (V9 m ρ) c]
  show Cert.Layer.linRelu (W9 m ρ c (Proc.devRef .tc main_arg0)) (W9 m ρ c (Proc.devRef .tc main_arg4)) (fun j => W9 m ρ c (Proc.devRef .tc main_v44) (ix2 (0 : Fin 1) j)) = _
  rw [hp.arg0, hp.arg4, hp.v44, row_of_reshape]
  unfold Cert.ReferenceIdeal.Read.val_main_v48 Cert.ReferenceIdeal.Read.val_main_v47 Cert.ReferenceIdeal.Read.val_main_v46 Cert.ReferenceIdeal.Read.val_main_v45 Cert.ReferenceIdeal.Read.val_main_v44 Cert.ReferenceIdeal.Read.val_main_call4_v0 Cert.ReferenceIdeal.Read.val_main_call4_cst
  exact (Cert.ReferenceIdeal.HostDense.fc_eq _ _ _).symm

theorem w10_arg2 : W10 m ρ c (Proc.devRef .tc main_arg2) = arg m c main_arg2 := (W10_of_ne m ρ c main_arg2 (by decide)).trans hp.arg2
theorem w10_arg3 : W10 m ρ c (Proc.devRef .tc main_arg3) = arg m c main_arg3 := (W10_of_ne m ρ c main_arg3 (by decide)).trans hp.arg3
theorem w10_arg6 : W10 m ρ c (Proc.devRef .tc main_arg6) = arg m c main_arg6 := (W10_of_ne m ρ c main_arg6 (by decide)).trans hp.arg6
theorem w10_arg7 : W10 m ρ c (Proc.devRef .tc main_arg7) = arg m c main_arg7 := (W10_of_ne m ρ c main_arg7 (by decide)).trans hp.arg7
theorem w10_v1 : W10 m ρ c (Proc.devRef .tc main_v1) = Cert.ReferenceIdeal.Read.val_main_v1 (F := Ideal) (arg m c main_arg1) := (W10_of_ne m ρ c main_v1 (by decide)).trans hp.v1
theorem w10_v3 : W10 m ρ c (Proc.devRef .tc main_v3) = Cert.ReferenceIdeal.Read.val_main_v3 (F := Ideal) (arg m c main_arg1) := (W10_of_ne m ρ c main_v3 (by decide)).trans hp.v3
theorem w10_v43 : W10 m ρ c (Proc.devRef .tc main_v43) = Cert.ReferenceIdeal.Read.val_main_v43 (F := Ideal) (arg m c main_arg1) (arg m c main_arg2) (arg m c main_arg3) := (W10_of_ne m ρ c main_v43 (by decide)).trans hp.v43

/-! ## After the host stretch that follows: the two scales, the first hidden layer's weights and bias -/

theorem w11_v46 : W11 m ρ c (Proc.devRef .tc main_v46) = Cert.ReferenceIdeal.Read.val_main_v64 (F := Ideal) (arg m c main_arg1) (arg m c main_arg2) (arg m c main_arg3) := by
  dsimp only [W11, hostOps1]; after_results_simp
  rw [w10_arg3 m ρ c hp, w10_v43 m ρ c hp]
  rfl

theorem w11_v54 : W11 m ρ c (Proc.devRef .tc main_v54) = Cert.ReferenceIdeal.Read.val_main_v86 (F := Ideal) (arg m c main_arg1) (arg m c main_arg2) (arg m c main_arg3) := by
  dsimp only [W11, hostOps1]; after_results_simp
  rw [w10_arg2 m ρ c hp, w10_arg3 m ρ c hp, w10_v43 m ρ c hp, w10_v3 m ρ c hp]
  refine Eq.trans ?_ (mulf_assoc (Cert.ReferenceIdeal.Read.val_main_v84 (F := Ideal) (arg m c main_arg1) (arg m c main_arg2)) (arg m c main_arg3) (Cert.ReferenceIdeal.Read.val_main_v43 (F := Ideal) (arg m c main_arg1) (arg m c main_arg2) (arg m c main_arg3)))
  rfl

theorem w11_v56 : W11 m ρ c (Proc.devRef .tc main_v56) = Cert.ReferenceIdeal.Read.val_main_v50 (F := Ideal) (arg m c main_arg6) := by
  dsimp only [W11, hostOps1]; after_results_simp
  rw [w10_arg6 m ρ c hp]
  rfl

theorem w11_v59 : W11 m ρ c (Proc.devRef .tc main_v59) = shapeCast S1x128 (Cert.ReferenceIdeal.Read.val_main_v53 (F := Ideal) (arg m c main_arg7)) shapeCasts_S128_S1x128 := by
  dsimp only [W11, hostOps1]; after_results_simp
  rw [w10_arg7 m ρ c hp]
  rfl

theorem w11_v45 : W11 m ρ c (Proc.devRef .tc main_v45) = Cert.ReferenceIdeal.Read.val_main_v48 (F := Ideal) (arg m c main_arg0) (arg m c main_arg4) (arg m c main_arg5) := by
  dsimp only [W11, hostOps1]; after_results_simp; exact w10_v45 m ρ c hp
theorem w11_arg6 : W11 m ρ c (Proc.devRef .tc main_arg6) = arg m c main_arg6 := by
  dsimp only [W11, hostOps1]; after_results_simp; exact w10_arg6 m ρ c hp
theorem w11_arg7 : W11 m ρ c (Proc.devRef .tc main_arg7) = arg m c main_arg7 := by
  dsimp only [W11, hostOps1]; after_results_simp; exact w10_arg7 m ρ c hp
theorem w11_v1 : W11 m ρ c (Proc.devRef .tc main_v1) = Cert.ReferenceIdeal.Read.val_main_v1 (F := Ideal) (arg m c main_arg1) := by
  dsimp only [W11, hostOps1]; after_results_simp; exact w10_v1 m ρ c hp
theorem w11_v3 : W11 m ρ c (Proc.devRef .tc main_v3) = Cert.ReferenceIdeal.Read.val_main_v3 (F := Ideal) (arg m c main_arg1) := by
  dsimp only [W11, hostOps1]; after_results_simp; exact w10_v3 m ρ c hp

/-! ## After the hidden layer's dense call -/

theorem w12_v60 : W12 m ρ c (Proc.devRef .tc main_v60) = Cert.ReferenceIdeal.Read.val_main_v56 (F := Ideal) (arg m c main_arg0) (arg m c main_arg4) (arg m c main_arg5) (arg m c main_arg6) (arg m c main_arg7) := by
  refine (W12_arr m ρ c 3).trans ?_
  rw [RegionValue.region1 (V11 m ρ) c]
  show Cert.Layer.lin (W11 m ρ c (Proc.devRef .tc main_v45)) (W11 m ρ c (Proc.devRef .tc main_v56)) (fun j => W11 m ρ c (Proc.devRef .tc main_v59) (ix2 (0 : Fin 1) j)) = _
  rw [w11_v45 m ρ c hp, w11_v56 m ρ c hp, w11_v59 m ρ c hp, row_of_reshape]
  unfold Cert.ReferenceIdeal.Read.val_main_v56 Cert.ReferenceIdeal.Read.val_main_v55 Cert.ReferenceIdeal.Read.val_main_v54 Cert.ReferenceIdeal.Read.val_main_v51
  exact (Cert.ReferenceIdeal.HostDense.lin_eq _ _ _).symm

theorem w12_v45 : W12 m ρ c (Proc.devRef .tc main_v45) = Cert.ReferenceIdeal.Read.val_main_v48 (F := Ideal) (arg m c main_arg0) (arg m c main_arg4) (arg m c main_arg5) :=
  ((W12_arr m ρ c 0).trans (((dat1 (V11 m ρ) c).arrAt_in 0 rfl _).trans (A_eq1 (V11 m ρ) c 0))).trans (w11_v45 m ρ c hp)
theorem w12_v46 : W12 m ρ c (Proc.devRef .tc main_v46) = Cert.ReferenceIdeal.Read.val_main_v64 (F := Ideal) (arg m c main_arg1) (arg m c main_arg2) (arg m c main_arg3) := (W12_of_ne m ρ c main_v46 (by decide)).trans (w11_v46 m ρ c hp)
theorem w12_v54 : W12 m ρ c (Proc.devRef .tc main_v54) = Cert.ReferenceIdeal.Read.val_main_v86 (F := Ideal) (arg m c main_arg1) (arg m c main_arg2) (arg m c main_arg3) := (W12_of_ne m ρ c main_v54 (by decide)).trans (w11_v54 m ρ c hp)
theorem w12_arg6 : W12 m ρ c (Proc.devRef .tc main_arg6) = arg m c main_arg6 := (W12_of_ne m ρ c main_arg6 (by decide)).trans (w11_arg6 m ρ c hp)
theorem w12_arg7 : W12 m ρ c (Proc.devRef .tc main_arg7) = arg m c main_arg7 := (W12_of_ne m ρ c main_arg7 (by decide)).trans (w11_arg7 m ρ c hp)
theorem w12_v1 : W12 m ρ c (Proc.devRef .tc main_v1) = Cert.ReferenceIdeal.Read.val_main_v1 (F := Ideal) (arg m c main_arg1) := (W12_of_ne m ρ c main_v1 (by decide)).trans (w11_v1 m ρ c hp)
theorem w12_v3 : W12 m ρ c (Proc.devRef .tc main_v3) = Cert.ReferenceIdeal.Read.val_main_v3 (F := Ideal) (arg m c main_arg1) := (W12_of_ne m ρ c main_v3 (by decide)).trans (w11_v3 m ρ c hp)

/-! ## After the gather / scale / scatter-add stretch: the reference's own operations on equal operands -/

theorem w13_v86 : W13 m ρ c (Proc.devRef .tc main_v86) = Cert.ReferenceIdeal.Read.val_main_v92 (F := Ideal) (arg m c main_arg0) (arg m c main_arg1) (arg m c main_arg2) (arg m c main_arg3) (arg m c main_arg4) (arg m c main_arg5) (arg m c main_arg6) (arg m c main_arg7) := by
  dsimp only [W13, hostOps2]; after_results_simp
  rw [w12_v60 m ρ c hp, w12_v1 m ρ c hp, w12_v3 m ρ c hp, w12_v46 m ρ c hp, w12_v54 m ρ c hp]
  rfl

theorem w13_v45 : W13 m ρ c (Proc.devRef .tc main_v45) = Cert.ReferenceIdeal.Read.val_main_v48 (F := Ideal) (arg m c main_arg0) (arg m c main_arg4) (arg m c main_arg5) := by
  dsimp only [W13, hostOps2]; after_results_simp; exact w12_v45 m ρ c hp
theorem w13_v46 : W13 m ρ c (Proc.devRef .tc main_v46) = Cert.ReferenceIdeal.Read.val_main_v64 (F := Ideal) (arg m c main_arg1) (arg m c main_arg2) (arg m c main_arg3) := by
  dsimp only [W13, hostOps2]; after_results_simp; exact w12_v46 m ρ c hp
theorem w13_v54 : W13 m ρ c (Proc.devRef .tc main_v54) = Cert.ReferenceIdeal.Read.val_main_v86 (F := Ideal) (arg m c main_arg1) (arg m c main_arg2) (arg m c main_arg3) := by
  dsimp only [W13, hostOps2]; after_results_simp; exact w12_v54 m ρ c hp
theorem w13_arg6 : W13 m ρ c (Proc.devRef .tc main_arg6) = arg m c main_arg6 := by
  dsimp only [W13, hostOps2]; after_results_simp; exact w12_arg6 m ρ c hp
theorem w13_arg7 : W13 m ρ c (Proc.devRef .tc main_arg7) = arg m c main_arg7 := by
  dsimp only [W13, hostOps2]; after_results_simp; exact w12_arg7 m ρ c hp
theorem w13_v1 : W13 m ρ c (Proc.devRef .tc main_v1) = Cert.ReferenceIdeal.Read.val_main_v1 (F := Ideal) (arg m c main_arg1) := by
  dsimp only [W13, hostOps2]; after_results_simp; exact w12_v1 m ρ c hp
theorem w13_v3 : W13 m ρ c (Proc.devRef .tc main_v3) = Cert.ReferenceIdeal.Read.val_main_v3 (F := Ideal) (arg m c main_arg1) := by
  dsimp only [W13, hostOps2]; after_results_simp; exact w12_v3 m ρ c hp

/-! ## After the rectified sum: the activations after this layer -/

theorem w14_v87 : W14 m ρ c (Proc.devRef .tc main_v87) = Cert.ReferenceIdeal.Read.val_main_v94 (F := Ideal) (arg m c main_arg0) (arg m c main_arg1) (arg m c main_arg2) (arg m c main_arg3) (arg m c main_arg4) (arg m c main_arg5) (arg m c main_arg6) (arg m c main_arg7) := by
  refine (W14_arr m ρ c 2).trans ?_
  rw [RegionValue.region2 (V13 m ρ) c]
  show Cert.Layer.addRelu (W13 m ρ c (Proc.devRef .tc main_v45)) (W13 m ρ c (Proc.devRef .tc main_v86)) = _
  rw [w13_v45 m ρ c hp, w13_v86 m ρ c hp]
  unfold Cert.ReferenceIdeal.Read.val_main_v94 Cert.ReferenceIdeal.Read.val_main_v93 Cert.ReferenceIdeal.Read.val_main_call5_v0 Cert.ReferenceIdeal.Read.val_main_call5_cst
  exact (Cert.ReferenceIdeal.HostDense.addRelu_eq _ _).symm

theorem w14_v46 : W14 m ρ c (Proc.devRef .tc main_v46) = Cert.ReferenceIdeal.Read.val_main_v64 (F := Ideal) (arg m c main_arg1) (arg m c main_arg2) (arg m c main_arg3) := (W14_of_ne m ρ c main_v46 (by decide)).trans (w13_v46 m ρ c hp)
theorem w14_v54 : W14 m ρ c (Proc.devRef .tc main_v54) = Cert.ReferenceIdeal.Read.val_main_v86 (F := Ideal) (arg m c main_arg1) (arg m c main_arg2) (arg m c main_arg3) := (W14_of_ne m ρ c main_v54 (by decide)).trans (w13_v54 m ρ c hp)
theorem w14_arg6 : W14 m ρ c (Proc.devRef .tc main_arg6) = arg m c main_arg6 := (W14_of_ne m ρ c main_arg6 (by decide)).trans (w13_arg6 m ρ c hp)
theorem w14_arg7 : W14 m ρ c (Proc.devRef .tc main_arg7) = arg m c main_arg7 := (W14_of_ne m ρ c main_arg7 (by decide)).trans (w13_arg7 m ρ c hp)
theorem w14_v1 : W14 m ρ c (Proc.devRef .tc main_v1) = Cert.ReferenceIdeal.Read.val_main_v1 (F := Ideal) (arg m c main_arg1) := (W14_of_ne m ρ c main_v1 (by decide)).trans (w13_v1 m ρ c hp)
theorem w14_v3 : W14 m ρ c (Proc.devRef .tc main_v3) = Cert.ReferenceIdeal.Read.val_main_v3 (F := Ideal) (arg m c main_arg1) := (W14_of_ne m ρ c main_v3 (by decide)).trans (w13_v3 m ρ c hp)

end Cert.KernelIdeal.Chain

end
-- ==== Proof.Region3.lean ====
/-
  What region 3 of the program (the kernel launched fourth) leaves in its output array, as one function of the arrays it finds:
  a dense layer (activations times weights plus bias) applied to every row.
  The 50000 rows are processed in 25 blocks of 2000; at each grid point the body multiplies the point's block of activations
  (rounded to bf16 on the way in: the identity on extended reals) by the whole weight matrix into a zero accumulator and
  adds the bias row. Entry (p, q) of the tile at point t is therefore entry (2000 t + p, q) of the layer applied to the
  whole array, because entry (p, q) depends on row p of the block only; the 25 blocks tile the rows, so the array ends
  holding the layer of the whole array.
-/
import proofs.«175211_j77953656422746_1_alg».proof.Proof.Gen.KernelIdeal.Frame
import proofs.«175211_j77953656422746_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe

/-- The body's payload at entry (p, q) of its tile: the dense layer applied to row p of the activations' block, with the
    whole weight matrix and the bias row. The two operand roundings and the shape casts are identities on extended reals. -/
theorem pay3_at (x0 : Vec Ideal S2000x128 .f32) (x1 : Vec Ideal S128x128 .f32) (x2 : Vec Ideal S1x128 .f32)
    (p : Fin 2000) (q : Fin 128) :
    k3_pay1 x0 x1 x2 (ix2 p q) = Cert.Dense.affine x1 (fun j => x2 (ix2 (0 : Fin 1) j)) (fun k => x0 (ix2 p k)) q := by
  unfold k3_pay1
  rw [shapeCast_self, shapeCast_self]
  exact Cert.Dense.tile_affine dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
    x0 x1 x2 bitsLt_bf16_f32 shapeCasts_S1x128_S1x128 broadcasts_S1x128_S2000x128 p q

/-- A dense layer's entry depends on the weights, the bias and the row only through their values. -/
theorem affine_congr3 {K N : ℕ} (W W' : (⟨2, ![K, N]⟩ : Shape).Idx → EReal) (b b' : Fin N → EReal) (h h' : Fin K → EReal)
    (hW : ∀ k j, W (ix2 k j) = W' (ix2 k j)) (hb : ∀ j, b j = b' j) (hh : ∀ k, h k = h' k) (q : Fin N) :
    Cert.Dense.affine W b h q = Cert.Dense.affine W' b' h' q := by
  unfold Cert.Dense.affine
  rw [hb q]
  exact congrArg (· + b' q) (Finset.sum_congr rfl fun k _ => by rw [hh k, hW k q])

theorem hz3 : (![0, 0] : Fin 2 → Nat) = fun _ => 0 := funext fun a => by fin_cases a <;> rfl

/-- The windows' block indices over the grid: the activations' and the output's blocks move down the rows with the grid
    point; the weight matrix and the bias row stay whole. -/
theorem idx3 : ∀ t : Fin cfg3.N, win3_0.index t 0 = t.val ∧ win3_0.index t 1 = 0 ∧ win3_1.index t 0 = 0 ∧ win3_1.index t 1 = 0
    ∧ win3_2.index t 0 = 0 ∧ win3_2.index t 1 = 0 ∧ win3_3.index t 0 = t.val ∧ win3_3.index t 1 = 0 :=
  (by decide +kernel : ∀ t : Fin grid3.N, _)

variable (V : (c : Dev nD) → (b : Ref sig .tc) → Buf (Elt Ideal) ((c : Thread nD τ).loc b))

/-- Window 0's block at point t is rows 2000 t … 2000 t + 1999 of the activations, all 128 columns. -/
theorem blk3_0 (c : Dev nD) (t : Fin cfg3.N) (p : Fin 2000) (k : Fin 128) (r : Fin 50000) (hr : r.val = t.val * 2000 + p.val) :
    iblk3 V c 0 t (ix2 p k) = V c (Pipeline.arrRef spec3 0) (ix2 r k) := by
  obtain ⟨e0, e1, -⟩ := idx3 t
  unfold iblk3
  rw [View.read_apply]
  show V c (Pipeline.arrRef spec3 0) (((cfg3.win 0).blk t).view.emb (ix2 p k)) = _
  refine congrArg _ ?_
  funext a
  apply Fin.ext
  match a with
  | ⟨0, _⟩ => show win3_0.index t 0 * 2000 + 1 * p.val = r.val; rw [e0, hr]; omega
  | ⟨1, _⟩ => show win3_0.index t 1 * 128 + 1 * k.val = k.val; rw [e1]; omega

/-- Window 1's block at every point is the whole weight matrix. -/
theorem blk3_1 (c : Dev nD) (t : Fin cfg3.N) (k : Fin 128) (j : Fin 128) :
    iblk3 V c 1 t (ix2 k j) = V c (Pipeline.arrRef spec3 1) (ix2 k j) := by
  obtain ⟨-, -, e0, e1, -⟩ := idx3 t
  unfold iblk3
  rw [View.read_apply]
  show V c (Pipeline.arrRef spec3 1) (((cfg3.win 1).blk t).view.emb (ix2 k j)) = _
  refine congrArg _ ?_
  funext a
  apply Fin.ext
  match a with
  | ⟨0, _⟩ => show win3_1.index t 0 * 128 + 1 * k.val = k.val; rw [e0]; omega
  | ⟨1, _⟩ => show win3_1.index t 1 * 128 + 1 * j.val = j.val; rw [e1]; omega

/-- Window 2's block at every point is the whole bias row. -/
theorem blk3_2 (c : Dev nD) (t : Fin cfg3.N) (z : Fin 1) (j : Fin 128) :
    iblk3 V c 2 t (ix2 z j) = V c (Pipeline.arrRef spec3 2) (ix2 z j) := by
  obtain ⟨-, -, -, -, e0, e1, -⟩ := idx3 t
  unfold iblk3
  rw [View.read_apply]
  show V c (Pipeline.arrRef spec3 2) (((cfg3.win 2).blk t).view.emb (ix2 z j)) = _
  refine congrArg _ ?_
  funext a
  apply Fin.ext
  match a with
  | ⟨0, _⟩ => show win3_2.index t 0 * 1 + 1 * z.val = z.val; rw [e0]; omega
  | ⟨1, _⟩ => show win3_2.index t 1 * 128 + 1 * j.val = j.val; rw [e1]; omega

/-- Entry (p, q) of the output's block at point t sits at row 2000 t + p, column q of the array. -/
theorem emb3_3 (t : Fin cfg3.N) (p : Fin 2000) (q : Fin 128) (r : Fin 50000) (hr : r.val = t.val * 2000 + p.val) :
    ((cfg3.win 3).blk t).view.emb (ix2 p q) = ix2 r q := by
  obtain ⟨-, -, -, -, -, -, e0, e1⟩ := idx3 t
  funext a
  apply Fin.ext
  match a with
  | ⟨0, _⟩ => show win3_3.index t 0 * 2000 + 1 * p.val = r.val; rw [e0, hr]; omega
  | ⟨1, _⟩ => show win3_3.index t 1 * 128 + 1 * q.val = q.val; rw [e1]; omega

/-- The tile the body stores at point t, at entry (p, q), is the dense layer of the whole arrays at row 2000 t + p: the
    activations' block holds rows 2000 t … 2000 t + 1999, and the other two windows hold the whole weight matrix and the
    whole bias row. -/
theorem tile3 (c : Dev nD) (t : Fin cfg3.N) (p : Fin 2000) (q : Fin 128) (r : Fin 50000) (hr : r.val = t.val * 2000 + p.val) :
    k3_pay1 (iblk3 V c 0 t) (iblk3 V c 1 t) (iblk3 V c 2 t) (ix2 p q)
      = Cert.Layer.lin (V c (Pipeline.arrRef spec3 0)) (V c (Pipeline.arrRef spec3 1)) (fun j => V c (Pipeline.arrRef spec3 2) (ix2 (0 : Fin 1) j)) (ix2 r q) :=
  ((pay3_at (iblk3 V c 0 t) (iblk3 V c 1 t) (iblk3 V c 2 t) p q).trans
    (affine_congr3 _ _ _ _ _ _ (fun k j => blk3_1 V c t k j) (fun j => blk3_2 V c t 0 j) (fun k => blk3_0 V c t p k r hr) q)).trans
    (Cert.Layer.lin_apply _ _ _ r q).symm

/-- The output buffer after the body is the payload of the loaded blocks: the one store covers the whole tile, and the
    loads read whole blocks. -/
theorem stored3 (x0 : Vec Ideal S2000x128 .f32) (x1 : Vec Ideal S128x128 .f32) (x2 : Vec Ideal S1x128 .f32) :
    out3_3 x0 x1 x2 = k3_pay1 x0 x1 x2 := by
  unfold out3_3
  rw [View.canon_unit_zero hz3]
  simp only [View.ld_unit_zero (S := S2000x128) hz3, View.ld_unit_zero (S := S128x128) hz3, View.ld_unit_zero (S := S1x128) hz3]

/-- The same tile, read where the output's block at point t sits in the array. -/
theorem tile_at3 (c : Dev nD) (t : Fin cfg3.N) (p : Fin 2000) (q : Fin 128) :
    k3_pay1 (iblk3 V c 0 t) (iblk3 V c 1 t) (iblk3 V c 2 t) (ix2 p q)
      = Cert.Layer.lin (V c (Pipeline.arrRef spec3 0)) (V c (Pipeline.arrRef spec3 1)) (fun j => V c (Pipeline.arrRef spec3 2) (ix2 (0 : Fin 1) j))
          (((cfg3.win 3).blk t).view.emb (ix2 p q)) := by
  have hN : cfg3.N = 25 := N_3
  have hr : t.val * 2000 + p.val < 50000 := by have := t.isLt; have := p.isLt; omega
  rw [emb3_3 t p q ⟨t.val * 2000 + p.val, hr⟩ rfl]
  exact tile3 V c t p q ⟨t.val * 2000 + p.val, hr⟩ rfl

/-- WHAT POINT t WRITES BACK is block t of the dense layer of the arrays the region finds. -/
theorem flushed3 (c : Dev nD) (t : Fin cfg3.N) :
    (dat3 (F := Ideal) V c).flushed 3 t = ((cfg3.win 3).blk t).view.read (Elt Ideal)
      (Cert.Layer.lin (V c (Pipeline.arrRef spec3 0)) (V c (Pipeline.arrRef spec3 1)) (fun j => V c (Pipeline.arrRef spec3 2) (ix2 (0 : Fin 1) j))) := by
  show (cfg3.win 3).cut (grid3.coords t) ((dat3 V c).after 3 t) = _
  rw [after3_3, stored3]
  funext y
  obtain ⟨p, q, rfl⟩ : ∃ (p : Fin 2000) (q : Fin 128), y = ix2 p q := ⟨y 0, y 1, eq_ix2 y⟩
  exact tile_at3 V c t p q

/-- An index of the output array is in point t's block iff each coordinate is in the block's range on its axis. -/
theorem mem_blk3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v93).slice (win3_3.rect t)).set ↔ _
  rw [View.set_slice_whole, Rect.mem_set_unit]
  exact Iff.rfl

/-- The 25 blocks of 2000 rows tile the 50000 rows: row r is in the block of point r / 2000, and every point writes back. -/
theorem cover3 (i : S50000x128.Idx) : ∃ t : Fin cfg3.N, (cfg3.win 3).flush t = true ∧ i ∈ ((cfg3.win 3).blk t).view.set := by
  have hN : cfg3.N = 25 := N_3
  have hi0 : (i 0).val < 50000 := (i 0).isLt
  have hi1 : (i 1).val < 128 := (i 1).isLt
  obtain ⟨t, ht⟩ : ∃ t : Fin cfg3.N, t.val = (i 0).val / 2000 := ⟨⟨(i 0).val / 2000, by rw [hN]; omega⟩, rfl⟩
  obtain ⟨-, -, -, -, -, -, e0, e1⟩ := idx3 t
  refine ⟨t, flush3_3 t, ?_⟩
  rw [mem_blk3]
  intro a
  match a with
  | ⟨0, _⟩ => show win3_3.index t 0 * 2000 ≤ (i 0).val ∧ (i 0).val < win3_3.index t 0 * 2000 + 2000; rw [e0, ht]; omega
  | ⟨1, _⟩ => show win3_3.index t 1 * 128 ≤ (i 1).val ∧ (i 1).val < win3_3.index t 1 * 128 + 128; rw [e1]; omega

/-- REGION 3 leaves in its output array the dense layer of the arrays it finds: every row of the activations times the
    weight matrix, plus the bias row. -/
theorem region3 (c : Dev nD) : (dat3 (F := Ideal) V c).arrAt 3 cfg3.N = Cert.Layer.lin (V c (Pipeline.arrRef spec3 0)) (V c (Pipeline.arrRef spec3 1)) (fun j => V c (Pipeline.arrRef spec3 2) (ix2 (0 : Fin 1) j)) :=
  (dat3 (F := Ideal) V c).arrAt_eq_of_cover 3 _ (fun t _ => flushed3 V c t) cover3

end Cert.KernelIdeal.RegionValue

end
-- ==== Proof.Region4.lean ====
/-
  What pallas_call 4 ('h = relu (h + z)', 25 grid points over the 50000 rows) leaves in its output array, as one
  function of the two arrays it finds: entry i of the output is max (h i + z i) 0.

  Every window of the call — the two inputs and the output — takes block (t, 0) of a [50000, 128] array at grid
  point t, a block of 2000 rows by all 128 columns. Element y of the block of point t therefore sits at row
  t * 2000 + y 0, column y 1 of its array, for all three windows alike; the body adds the two loaded blocks entry by
  entry, takes the maximum with zero and stores the whole block. So what point t writes back is block t of the
  rectified sum of the two input arrays, and since row r lies in the block of point r / 2000 (and 25 * 2000 = 50000),
  the blocks fill the array: it ends holding the rectified sum everywhere.
-/
import proofs.«175211_j77953656422746_1_alg».proof.Proof.Gen.KernelIdeal.Frame
import proofs.«175211_j77953656422746_1_alg».proof.Proof.Layer
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe

/-- The store's rectangle starts at the origin of the block. -/
theorem origin4 : (![0, 0] : Fin 2 → Nat) = fun _ => 0 := funext fun a => by fin_cases a <;> rfl

/-- The body's arithmetic on the two loaded blocks, entry by entry: the two entries added, then the maximum with the
    value of the zero word (the two shape casts are casts of a shape to itself). -/
theorem addRelu_entry4 (x0 x1 : Vec Ideal S2000x128 .f32) :
    k4_pay1 x0 x1 = fun y => max (x0 y + x1 y) (Ideal.ofBits .f32 0x00000000#32) := by
  unfold k4_pay1
  simp only [shapeCast_self]
  rfl

/-- The three windows' block indices, decided over the 25 grid points: the inputs move with the output, whose block
    row is the point's number and whose block column is 0. -/
theorem block_index4 : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) = t.val
    ∧ win4_2.index t (1 : Fin 2) = 0 :=
  (by decide +kernel : ∀ t : Fin grid4.N, _)

variable (V : (c : Dev nD) → (b : Ref sig .tc) → Buf (Elt Ideal) ((c : Thread nD τ).loc b))

/-- What grid point t writes back is block t of the rectified sum of the two input arrays as the call finds them:
    each input's block holds its array's entries at exactly the places the output's block names. -/
theorem written_back4 (c : Dev nD) (t : Fin cfg4.N) :
    (dat4 (F := Ideal) V c).flushed 2 t = ((cfg4.win 2).blk t).view.read (Elt Ideal)
      (Cert.Layer.addRelu (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero origin4]
  simp only [View.ld_unit_zero (S := S2000x128) origin4]
  rw [addRelu_entry4]
  obtain ⟨e0, e1, e2, e3, e4, e5⟩ := block_index4 t
  funext j
  have h0 : ((cfg4.win 0).blk t).view.emb j = ((cfg4.win 2).blk t).view.emb j := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 2000 + 1 * (j 0).val = win4_2.index t (0 : Fin 2) * 2000 + 1 * (j 0).val; omega
    | ⟨1, _⟩ => show win4_1.index t (1 : Fin 2) * 128 + 1 * (j 1).val = win4_2.index t (1 : Fin 2) * 128 + 1 * (j 1).val; omega
  have same_place : ∀ A0 A1 : S50000x128.Idx → EReal,
      max (A0 (((cfg4.win 0).blk t).view.emb j) + A1 (((cfg4.win 1).blk t).view.emb j)) (Ideal.ofBits .f32 0x00000000#32)
        = Cert.Layer.addRelu A0 A1 (((cfg4.win 2).blk t).view.emb j) := fun A0 A1 => by rw [h0, h1]; rfl
  exact same_place (V c (Pipeline.arrRef spec4 0)) (V c (Pipeline.arrRef spec4 1))

/-- An entry of the output array is in point t's block iff each coordinate is in the block's range on its axis. -/
theorem in_block4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v120).slice (win4_2.rect t)).set ↔ _
  rw [View.set_slice_whole, Rect.mem_set_unit]
  exact Iff.rfl

/-- The blocks fill the array: row r is in the block of point r / 2000. -/
theorem blocks_fill4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  let t : Fin cfg4.N := ⟨(i 0).val / 2000, by rw [hN]; omega⟩
  obtain ⟨e0, e1, e2, e3, e4, e5⟩ := block_index4 t
  have e4' : win4_2.index t (0 : Fin 2) = (i 0).val / 2000 := e4
  refine ⟨t, flush4_2 t, ?_⟩
  rw [in_block4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- THE OUTPUT ARRAY after the call: the rectified sum of the two input arrays as the call finds them. -/
theorem region4 (c : Dev nD) : (dat4 (F := Ideal) V c).arrAt 2 cfg4.N = Cert.Layer.addRelu (V c (Pipeline.arrRef spec4 0)) (V c (Pipeline.arrRef spec4 1)) :=
  (dat4 (F := Ideal) V c).arrAt_eq_of_cover 2 _ (fun t _ => written_back4 V c t) (blocks_fill4)

end Cert.KernelIdeal.RegionValue

end
-- ==== Proof.ChainB.lean ====
/- The second hidden layer, boundary by boundary, against the reference's stages: the same four steps as the first.
-/
import proofs.«175211_j77953656422746_1_alg».proof.Proof.ChainA
import proofs.«175211_j77953656422746_1_alg».proof.Proof.Region3
import proofs.«175211_j77953656422746_1_alg».proof.Proof.Region4
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

variable (hp : Pre m c (W9 m ρ c))
include hp

/-! ## After the host stretch that slices the next layer's weights and bias -/

theorem w15_v89 : W15 m ρ c (Proc.devRef .tc main_v89) = Cert.ReferenceIdeal.Read.val_main_v96 (F := Ideal) (arg m c main_arg6) := by
  dsimp only [W15, hostOps3]; after_results_simp
  rw [w14_arg6 m ρ c hp]
  rfl

theorem w15_v92 : W15 m ρ c (Proc.devRef .tc main_v92) = shapeCast S1x128 (Cert.ReferenceIdeal.Read.val_main_v99 (F := Ideal) (arg m c main_arg7)) shapeCasts_S128_S1x128 := by
  dsimp only [W15, hostOps3]; after_results_simp
  rw [w14_arg7 m ρ c hp]
  rfl

theorem w15_v87 : W15 m ρ c (Proc.devRef .tc main_v87) = Cert.ReferenceIdeal.Read.val_main_v94 (F := Ideal) (arg m c main_arg0) (arg m c main_arg1) (arg m c main_arg2) (arg m c main_arg3) (arg m c main_arg4) (arg m c main_arg5) (arg m c main_arg6) (arg m c main_arg7) := by
  dsimp only [W15, hostOps3]; after_results_simp; exact w14_v87 m ρ c hp
theorem w15_v46 : W15 m ρ c (Proc.devRef .tc main_v46) = Cert.ReferenceIdeal.Read.val_main_v64 (F := Ideal) (arg m c main_arg1) (arg m c main_arg2) (arg m c main_arg3) := by
  dsimp only [W15, hostOps3]; after_results_simp; exact w14_v46 m ρ c hp
theorem w15_v54 : W15 m ρ c (Proc.devRef .tc main_v54) = Cert.ReferenceIdeal.Read.val_main_v86 (F := Ideal) (arg m c main_arg1) (arg m c main_arg2) (arg m c main_arg3) := by
  dsimp only [W15, hostOps3]; after_results_simp; exact w14_v54 m ρ c hp
theorem w15_arg6 : W15 m ρ c (Proc.devRef .tc main_arg6) = arg m c main_arg6 := by
  dsimp only [W15, hostOps3]; after_results_simp; exact w14_arg6 m ρ c hp
theorem w15_arg7 : W15 m ρ c (Proc.devRef .tc main_arg7) = arg m c main_arg7 := by
  dsimp only [W15, hostOps3]; after_results_simp; exact w14_arg7 m ρ c hp
theorem w15_v1 : W15 m ρ c (Proc.devRef .tc main_v1) = Cert.ReferenceIdeal.Read.val_main_v1 (F := Ideal) (arg m c main_arg1) := by
  dsimp only [W15, hostOps3]; after_results_simp; exact w14_v1 m ρ c hp
theorem w15_v3 : W15 m ρ c (Proc.devRef .tc main_v3) = Cert.ReferenceIdeal.Read.val_main_v3 (F := Ideal) (arg m c main_arg1) := by
  dsimp only [W15, hostOps3]; after_results_simp; exact w14_v3 m ρ c hp

/-! ## After the hidden layer's dense call -/

theorem w16_v93 : W16 m ρ c (Proc.devRef .tc main_v93) = Cert.ReferenceIdeal.Read.val_main_v102 (F := Ideal) (arg m c main_arg0) (arg m c main_arg1) (arg m c main_arg2) (arg m c main_arg3) (arg m c main_arg4) (arg m c main_arg5) (arg m c main_arg6) (arg m c main_arg7) := by
  refine (W16_arr m ρ c 3).trans ?_
  rw [RegionValue.region3 (V15 m ρ) c]
  show Cert.Layer.lin (W15 m ρ c (Proc.devRef .tc main_v87)) (W15 m ρ c (Proc.devRef .tc main_v89)) (fun j => W15 m ρ c (Proc.devRef .tc main_v92) (ix2 (0 : Fin 1) j)) = _
  rw [w15_v87 m ρ c hp, w15_v89 m ρ c hp, w15_v92 m ρ c hp, row_of_reshape]
  unfold Cert.ReferenceIdeal.Read.val_main_v102 Cert.ReferenceIdeal.Read.val_main_v101 Cert.ReferenceIdeal.Read.val_main_v100 Cert.ReferenceIdeal.Read.val_main_v97
  exact (Cert.ReferenceIdeal.HostDense.lin_eq _ _ _).symm

theorem w16_v87 : W16 m ρ c (Proc.devRef .tc main_v87) = Cert.ReferenceIdeal.Read.val_main_v94 (F := Ideal) (arg m c main_arg0) (arg m c main_arg1) (arg m c main_arg2) (arg m c main_arg3) (arg m c main_arg4) (arg m c main_arg5) (arg m c main_arg6) (arg m c main_arg7) :=
  ((W16_arr m ρ c 0).trans (((dat3 (V15 m ρ) c).arrAt_in 0 rfl _).trans (A_eq3 (V15 m ρ) c 0))).trans (w15_v87 m ρ c hp)
theorem w16_v46 : W16 m ρ c (Proc.devRef .tc main_v46) = Cert.ReferenceIdeal.Read.val_main_v64 (F := Ideal) (arg m c main_arg1) (arg m c main_arg2) (arg m c main_arg3) := (W16_of_ne m ρ c main_v46 (by decide)).trans (w15_v46 m ρ c hp)
theorem w16_v54 : W16 m ρ c (Proc.devRef .tc main_v54) = Cert.ReferenceIdeal.Read.val_main_v86 (F := Ideal) (arg m c main_arg1) (arg m c main_arg2) (arg m c main_arg3) := (W16_of_ne m ρ c main_v54 (by decide)).trans (w15_v54 m ρ c hp)
theorem w16_arg6 : W16 m ρ c (Proc.devRef .tc main_arg6) = arg m c main_arg6 := (W16_of_ne m ρ c main_arg6 (by decide)).trans (w15_arg6 m ρ c hp)
theorem w16_arg7 : W16 m ρ c (Proc.devRef .tc main_arg7) = arg m c main_arg7 := (W16_of_ne m ρ c main_arg7 (by decide)).trans (w15_arg7 m ρ c hp)
theorem w16_v1 : W16 m ρ c (Proc.devRef .tc main_v1) = Cert.ReferenceIdeal.Read.val_main_v1 (F := Ideal) (arg m c main_arg1) := (W16_of_ne m ρ c main_v1 (by decide)).trans (w15_v1 m ρ c hp)
theorem w16_v3 : W16 m ρ c (Proc.devRef .tc main_v3) = Cert.ReferenceIdeal.Read.val_main_v3 (F := Ideal) (arg m c main_arg1) := (W16_of_ne m ρ c main_v3 (by decide)).trans (w15_v3 m ρ c hp)

/-! ## After the gather / scale / scatter-add stretch: the reference's own operations on equal operands -/

theorem w17_v119 : W17 m ρ c (Proc.devRef .tc main_v119) = Cert.ReferenceIdeal.Read.val_main_v138 (F := Ideal) (arg m c main_arg0) (arg m c main_arg1) (arg m c main_arg2) (arg m c main_arg3) (arg m c main_arg4) (arg m c main_arg5) (arg m c main_arg6) (arg m c main_arg7) := by
  dsimp only [W17, hostOps4]; after_results_simp
  rw [w16_v93 m ρ c hp, w16_v1 m ρ c hp, w16_v3 m ρ c hp, w16_v46 m ρ c hp, w16_v54 m ρ c hp]
  rfl

theorem w17_v87 : W17 m ρ c (Proc.devRef .tc main_v87) = Cert.ReferenceIdeal.Read.val_main_v94 (F := Ideal) (arg m c main_arg0) (arg m c main_arg1) (arg m c main_arg2) (arg m c main_arg3) (arg m c main_arg4) (arg m c main_arg5) (arg m c main_arg6) (arg m c main_arg7) := by
  dsimp only [W17, hostOps4]; after_results_simp; exact w16_v87 m ρ c hp
theorem w17_v46 : W17 m ρ c (Proc.devRef .tc main_v46) = Cert.ReferenceIdeal.Read.val_main_v64 (F := Ideal) (arg m c main_arg1) (arg m c main_arg2) (arg m c main_arg3) := by
  dsimp only [W17, hostOps4]; after_results_simp; exact w16_v46 m ρ c hp
theorem w17_v54 : W17 m ρ c (Proc.devRef .tc main_v54) = Cert.ReferenceIdeal.Read.val_main_v86 (F := Ideal) (arg m c main_arg1) (arg m c main_arg2) (arg m c main_arg3) := by
  dsimp only [W17, hostOps4]; after_results_simp; exact w16_v54 m ρ c hp
theorem w17_arg6 : W17 m ρ c (Proc.devRef .tc main_arg6) = arg m c main_arg6 := by
  dsimp only [W17, hostOps4]; after_results_simp; exact w16_arg6 m ρ c hp
theorem w17_arg7 : W17 m ρ c (Proc.devRef .tc main_arg7) = arg m c main_arg7 := by
  dsimp only [W17, hostOps4]; after_results_simp; exact w16_arg7 m ρ c hp
theorem w17_v1 : W17 m ρ c (Proc.devRef .tc main_v1) = Cert.ReferenceIdeal.Read.val_main_v1 (F := Ideal) (arg m c main_arg1) := by
  dsimp only [W17, hostOps4]; after_results_simp; exact w16_v1 m ρ c hp
theorem w17_v3 : W17 m ρ c (Proc.devRef .tc main_v3) = Cert.ReferenceIdeal.Read.val_main_v3 (F := Ideal) (arg m c main_arg1) := by
  dsimp only [W17, hostOps4]; after_results_simp; exact w16_v3 m ρ c hp

/-! ## After the rectified sum: the activations after this layer -/

theorem w18_v120 : W18 m ρ c (Proc.devRef .tc main_v120) = Cert.ReferenceIdeal.Read.val_main_v140 (F := Ideal) (arg m c main_arg0) (arg m c main_arg1) (arg m c main_arg2) (arg m c main_arg3) (arg m c main_arg4) (arg m c main_arg5) (arg m c main_arg6) (arg m c main_arg7) := by
  refine (W18_arr m ρ c 2).trans ?_
  rw [RegionValue.region4 (V17 m ρ) c]
  show Cert.Layer.addRelu (W17 m ρ c (Proc.devRef .tc main_v87)) (W17 m ρ c (Proc.devRef .tc main_v119)) = _
  rw [w17_v87 m ρ c hp, w17_v119 m ρ c hp]
  unfold Cert.ReferenceIdeal.Read.val_main_v140 Cert.ReferenceIdeal.Read.val_main_v139 Cert.ReferenceIdeal.Read.val_main_call6_v0 Cert.ReferenceIdeal.Read.val_main_call6_cst
  exact (Cert.ReferenceIdeal.HostDense.addRelu_eq _ _).symm

theorem w18_v46 : W18 m ρ c (Proc.devRef .tc main_v46) = Cert.ReferenceIdeal.Read.val_main_v64 (F := Ideal) (arg m c main_arg1) (arg m c main_arg2) (arg m c main_arg3) := (W18_of_ne m ρ c main_v46 (by decide)).trans (w17_v46 m ρ c hp)
theorem w18_v54 : W18 m ρ c (Proc.devRef .tc main_v54) = Cert.ReferenceIdeal.Read.val_main_v86 (F := Ideal) (arg m c main_arg1) (arg m c main_arg2) (arg m c main_arg3) := (W18_of_ne m ρ c main_v54 (by decide)).trans (w17_v54 m ρ c hp)
theorem w18_arg6 : W18 m ρ c (Proc.devRef .tc main_arg6) = arg m c main_arg6 := (W18_of_ne m ρ c main_arg6 (by decide)).trans (w17_arg6 m ρ c hp)
theorem w18_arg7 : W18 m ρ c (Proc.devRef .tc main_arg7) = arg m c main_arg7 := (W18_of_ne m ρ c main_arg7 (by decide)).trans (w17_arg7 m ρ c hp)
theorem w18_v1 : W18 m ρ c (Proc.devRef .tc main_v1) = Cert.ReferenceIdeal.Read.val_main_v1 (F := Ideal) (arg m c main_arg1) := (W18_of_ne m ρ c main_v1 (by decide)).trans (w17_v1 m ρ c hp)
theorem w18_v3 : W18 m ρ c (Proc.devRef .tc main_v3) = Cert.ReferenceIdeal.Read.val_main_v3 (F := Ideal) (arg m c main_arg1) := (W18_of_ne m ρ c main_v3 (by decide)).trans (w17_v3 m ρ c hp)

end Cert.KernelIdeal.Chain

end
-- ==== Proof.Region5.lean ====
/-
  What region 5 of the program (the kernel launched sixth) leaves in its output array, as one function of the arrays it finds:
  a dense layer (activations times weights plus bias) applied to every row.
  The 50000 rows are processed in 25 blocks of 2000; at each grid point the body multiplies the point's block of activations
  (rounded to bf16 on the way in: the identity on extended reals) by the whole weight matrix into a zero accumulator and
  adds the bias row. Entry (p, q) of the tile at point t is therefore entry (2000 t + p, q) of the layer applied to the
  whole array, because entry (p, q) depends on row p of the block only; the 25 blocks tile the rows, so the array ends
  holding the layer of the whole array.
-/
import proofs.«175211_j77953656422746_1_alg».proof.Proof.Gen.KernelIdeal.Frame
import proofs.«175211_j77953656422746_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe

/-- The body's payload at entry (p, q) of its tile: the dense layer applied to row p of the activations' block, with the
    whole weight matrix and the bias row. The two operand roundings and the shape casts are identities on extended reals. -/
theorem pay5_at (x0 : Vec Ideal S2000x128 .f32) (x1 : Vec Ideal S128x128 .f32) (x2 : Vec Ideal S1x128 .f32)
    (p : Fin 2000) (q : Fin 128) :
    k5_pay1 x0 x1 x2 (ix2 p q) = Cert.Dense.affine x1 (fun j => x2 (ix2 (0 : Fin 1) j)) (fun k => x0 (ix2 p k)) q := by
  unfold k5_pay1
  rw [shapeCast_self, shapeCast_self]
  exact Cert.Dense.tile_affine dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
    x0 x1 x2 bitsLt_bf16_f32 shapeCasts_S1x128_S1x128 broadcasts_S1x128_S2000x128 p q

/-- A dense layer's entry depends on the weights, the bias and the row only through their values. -/
theorem affine_congr5 {K N : ℕ} (W W' : (⟨2, ![K, N]⟩ : Shape).Idx → EReal) (b b' : Fin N → EReal) (h h' : Fin K → EReal)
    (hW : ∀ k j, W (ix2 k j) = W' (ix2 k j)) (hb : ∀ j, b j = b' j) (hh : ∀ k, h k = h' k) (q : Fin N) :
    Cert.Dense.affine W b h q = Cert.Dense.affine W' b' h' q := by
  unfold Cert.Dense.affine
  rw [hb q]
  exact congrArg (· + b' q) (Finset.sum_congr rfl fun k _ => by rw [hh k, hW k q])

theorem hz5 : (![0, 0] : Fin 2 → Nat) = fun _ => 0 := funext fun a => by fin_cases a <;> rfl

/-- The windows' block indices over the grid: the activations' and the output's blocks move down the rows with the grid
    point; the weight matrix and the bias row stay whole. -/
theorem idx5 : ∀ t : Fin cfg5.N, win5_0.index t 0 = t.val ∧ win5_0.index t 1 = 0 ∧ win5_1.index t 0 = 0 ∧ win5_1.index t 1 = 0
    ∧ win5_2.index t 0 = 0 ∧ win5_2.index t 1 = 0 ∧ win5_3.index t 0 = t.val ∧ win5_3.index t 1 = 0 :=
  (by decide +kernel : ∀ t : Fin grid5.N, _)

variable (V : (c : Dev nD) → (b : Ref sig .tc) → Buf (Elt Ideal) ((c : Thread nD τ).loc b))

/-- Window 0's block at point t is rows 2000 t … 2000 t + 1999 of the activations, all 128 columns. -/
theorem blk5_0 (c : Dev nD) (t : Fin cfg5.N) (p : Fin 2000) (k : Fin 128) (r : Fin 50000) (hr : r.val = t.val * 2000 + p.val) :
    iblk5 V c 0 t (ix2 p k) = V c (Pipeline.arrRef spec5 0) (ix2 r k) := by
  obtain ⟨e0, e1, -⟩ := idx5 t
  unfold iblk5
  rw [View.read_apply]
  show V c (Pipeline.arrRef spec5 0) (((cfg5.win 0).blk t).view.emb (ix2 p k)) = _
  refine congrArg _ ?_
  funext a
  apply Fin.ext
  match a with
  | ⟨0, _⟩ => show win5_0.index t 0 * 2000 + 1 * p.val = r.val; rw [e0, hr]; omega
  | ⟨1, _⟩ => show win5_0.index t 1 * 128 + 1 * k.val = k.val; rw [e1]; omega

/-- Window 1's block at every point is the whole weight matrix. -/
theorem blk5_1 (c : Dev nD) (t : Fin cfg5.N) (k : Fin 128) (j : Fin 128) :
    iblk5 V c 1 t (ix2 k j) = V c (Pipeline.arrRef spec5 1) (ix2 k j) := by
  obtain ⟨-, -, e0, e1, -⟩ := idx5 t
  unfold iblk5
  rw [View.read_apply]
  show V c (Pipeline.arrRef spec5 1) (((cfg5.win 1).blk t).view.emb (ix2 k j)) = _
  refine congrArg _ ?_
  funext a
  apply Fin.ext
  match a with
  | ⟨0, _⟩ => show win5_1.index t 0 * 128 + 1 * k.val = k.val; rw [e0]; omega
  | ⟨1, _⟩ => show win5_1.index t 1 * 128 + 1 * j.val = j.val; rw [e1]; omega

/-- Window 2's block at every point is the whole bias row. -/
theorem blk5_2 (c : Dev nD) (t : Fin cfg5.N) (z : Fin 1) (j : Fin 128) :
    iblk5 V c 2 t (ix2 z j) = V c (Pipeline.arrRef spec5 2) (ix2 z j) := by
  obtain ⟨-, -, -, -, e0, e1, -⟩ := idx5 t
  unfold iblk5
  rw [View.read_apply]
  show V c (Pipeline.arrRef spec5 2) (((cfg5.win 2).blk t).view.emb (ix2 z j)) = _
  refine congrArg _ ?_
  funext a
  apply Fin.ext
  match a with
  | ⟨0, _⟩ => show win5_2.index t 0 * 1 + 1 * z.val = z.val; rw [e0]; omega
  | ⟨1, _⟩ => show win5_2.index t 1 * 128 + 1 * j.val = j.val; rw [e1]; omega

/-- Entry (p, q) of the output's block at point t sits at row 2000 t + p, column q of the array. -/
theorem emb5_3 (t : Fin cfg5.N) (p : Fin 2000) (q : Fin 128) (r : Fin 50000) (hr : r.val = t.val * 2000 + p.val) :
    ((cfg5.win 3).blk t).view.emb (ix2 p q) = ix2 r q := by
  obtain ⟨-, -, -, -, -, -, e0, e1⟩ := idx5 t
  funext a
  apply Fin.ext
  match a with
  | ⟨0, _⟩ => show win5_3.index t 0 * 2000 + 1 * p.val = r.val; rw [e0, hr]; omega
  | ⟨1, _⟩ => show win5_3.index t 1 * 128 + 1 * q.val = q.val; rw [e1]; omega

/-- The tile the body stores at point t, at entry (p, q), is the dense layer of the whole arrays at row 2000 t + p: the
    activations' block holds rows 2000 t … 2000 t + 1999, and the other two windows hold the whole weight matrix and the
    whole bias row. -/
theorem tile5 (c : Dev nD) (t : Fin cfg5.N) (p : Fin 2000) (q : Fin 128) (r : Fin 50000) (hr : r.val = t.val * 2000 + p.val) :
    k5_pay1 (iblk5 V c 0 t) (iblk5 V c 1 t) (iblk5 V c 2 t) (ix2 p q)
      = Cert.Layer.lin (V c (Pipeline.arrRef spec5 0)) (V c (Pipeline.arrRef spec5 1)) (fun j => V c (Pipeline.arrRef spec5 2) (ix2 (0 : Fin 1) j)) (ix2 r q) :=
  ((pay5_at (iblk5 V c 0 t) (iblk5 V c 1 t) (iblk5 V c 2 t) p q).trans
    (affine_congr5 _ _ _ _ _ _ (fun k j => blk5_1 V c t k j) (fun j => blk5_2 V c t 0 j) (fun k => blk5_0 V c t p k r hr) q)).trans
    (Cert.Layer.lin_apply _ _ _ r q).symm

/-- The output buffer after the body is the payload of the loaded blocks: the one store covers the whole tile, and the
    loads read whole blocks. -/
theorem stored5 (x0 : Vec Ideal S2000x128 .f32) (x1 : Vec Ideal S128x128 .f32) (x2 : Vec Ideal S1x128 .f32) :
    out5_3 x0 x1 x2 = k5_pay1 x0 x1 x2 := by
  unfold out5_3
  rw [View.canon_unit_zero hz5]
  simp only [View.ld_unit_zero (S := S2000x128) hz5, View.ld_unit_zero (S := S128x128) hz5, View.ld_unit_zero (S := S1x128) hz5]

/-- The same tile, read where the output's block at point t sits in the array. -/
theorem tile_at5 (c : Dev nD) (t : Fin cfg5.N) (p : Fin 2000) (q : Fin 128) :
    k5_pay1 (iblk5 V c 0 t) (iblk5 V c 1 t) (iblk5 V c 2 t) (ix2 p q)
      = Cert.Layer.lin (V c (Pipeline.arrRef spec5 0)) (V c (Pipeline.arrRef spec5 1)) (fun j => V c (Pipeline.arrRef spec5 2) (ix2 (0 : Fin 1) j))
          (((cfg5.win 3).blk t).view.emb (ix2 p q)) := by
  have hN : cfg5.N = 25 := N_5
  have hr : t.val * 2000 + p.val < 50000 := by have := t.isLt; have := p.isLt; omega
  rw [emb5_3 t p q ⟨t.val * 2000 + p.val, hr⟩ rfl]
  exact tile5 V c t p q ⟨t.val * 2000 + p.val, hr⟩ rfl

/-- WHAT POINT t WRITES BACK is block t of the dense layer of the arrays the region finds. -/
theorem flushed5 (c : Dev nD) (t : Fin cfg5.N) :
    (dat5 (F := Ideal) V c).flushed 3 t = ((cfg5.win 3).blk t).view.read (Elt Ideal)
      (Cert.Layer.lin (V c (Pipeline.arrRef spec5 0)) (V c (Pipeline.arrRef spec5 1)) (fun j => V c (Pipeline.arrRef spec5 2) (ix2 (0 : Fin 1) j))) := by
  show (cfg5.win 3).cut (grid5.coords t) ((dat5 V c).after 3 t) = _
  rw [after5_3, stored5]
  funext y
  obtain ⟨p, q, rfl⟩ : ∃ (p : Fin 2000) (q : Fin 128), y = ix2 p q := ⟨y 0, y 1, eq_ix2 y⟩
  exact tile_at5 V c t p q

/-- An index of the output array is in point t's block iff each coordinate is in the block's range on its axis. -/
theorem mem_blk5 (t : Fin cfg5.N) (i : S50000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v126).slice (win5_3.rect t)).set ↔ _
  rw [View.set_slice_whole, Rect.mem_set_unit]
  exact Iff.rfl

/-- The 25 blocks of 2000 rows tile the 50000 rows: row r is in the block of point r / 2000, and every point writes back. -/
theorem cover5 (i : S50000x128.Idx) : ∃ t : Fin cfg5.N, (cfg5.win 3).flush t = true ∧ i ∈ ((cfg5.win 3).blk t).view.set := by
  have hN : cfg5.N = 25 := N_5
  have hi0 : (i 0).val < 50000 := (i 0).isLt
  have hi1 : (i 1).val < 128 := (i 1).isLt
  obtain ⟨t, ht⟩ : ∃ t : Fin cfg5.N, t.val = (i 0).val / 2000 := ⟨⟨(i 0).val / 2000, by rw [hN]; omega⟩, rfl⟩
  obtain ⟨-, -, -, -, -, -, e0, e1⟩ := idx5 t
  refine ⟨t, flush5_3 t, ?_⟩
  rw [mem_blk5]
  intro a
  match a with
  | ⟨0, _⟩ => show win5_3.index t 0 * 2000 ≤ (i 0).val ∧ (i 0).val < win5_3.index t 0 * 2000 + 2000; rw [e0, ht]; omega
  | ⟨1, _⟩ => show win5_3.index t 1 * 128 ≤ (i 1).val ∧ (i 1).val < win5_3.index t 1 * 128 + 128; rw [e1]; omega

/-- REGION 5 leaves in its output array the dense layer of the arrays it finds: every row of the activations times the
    weight matrix, plus the bias row. -/
theorem region5 (c : Dev nD) : (dat5 (F := Ideal) V c).arrAt 3 cfg5.N = Cert.Layer.lin (V c (Pipeline.arrRef spec5 0)) (V c (Pipeline.arrRef spec5 1)) (fun j => V c (Pipeline.arrRef spec5 2) (ix2 (0 : Fin 1) j)) :=
  (dat5 (F := Ideal) V c).arrAt_eq_of_cover 3 _ (fun t _ => flushed5 V c t) cover5

end Cert.KernelIdeal.RegionValue

end
-- ==== Proof.Region6.lean ====
/-
  What pallas_call 6 ('h = relu (h + z)', 25 grid points over the 50000 rows) leaves in its output array, as one
  function of the two arrays it finds: entry i of the output is max (h i + z i) 0.

  Every window of the call — the two inputs and the output — takes block (t, 0) of a [50000, 128] array at grid
  point t, a block of 2000 rows by all 128 columns. Element y of the block of point t therefore sits at row
  t * 2000 + y 0, column y 1 of its array, for all three windows alike; the body adds the two loaded blocks entry by
  entry, takes the maximum with zero and stores the whole block. So what point t writes back is block t of the
  rectified sum of the two input arrays, and since row r lies in the block of point r / 2000 (and 25 * 2000 = 50000),
  the blocks fill the array: it ends holding the rectified sum everywhere.
-/
import proofs.«175211_j77953656422746_1_alg».proof.Proof.Gen.KernelIdeal.Frame
import proofs.«175211_j77953656422746_1_alg».proof.Proof.Layer
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe

/-- The store's rectangle starts at the origin of the block. -/
theorem origin6 : (![0, 0] : Fin 2 → Nat) = fun _ => 0 := funext fun a => by fin_cases a <;> rfl

/-- The body's arithmetic on the two loaded blocks, entry by entry: the two entries added, then the maximum with the
    value of the zero word (the two shape casts are casts of a shape to itself). -/
theorem addRelu_entry6 (x0 x1 : Vec Ideal S2000x128 .f32) :
    k6_pay1 x0 x1 = fun y => max (x0 y + x1 y) (Ideal.ofBits .f32 0x00000000#32) := by
  unfold k6_pay1
  simp only [shapeCast_self]
  rfl

/-- The three windows' block indices, decided over the 25 grid points: the inputs move with the output, whose block
    row is the point's number and whose block column is 0. -/
theorem block_index6 : ∀ t : Fin cfg6.N, win6_0.index t (0 : Fin 2) = win6_2.index t (0 : Fin 2)
    ∧ win6_0.index t (1 : Fin 2) = win6_2.index t (1 : Fin 2)
    ∧ win6_1.index t (0 : Fin 2) = win6_2.index t (0 : Fin 2)
    ∧ win6_1.index t (1 : Fin 2) = win6_2.index t (1 : Fin 2)
    ∧ win6_2.index t (0 : Fin 2) = t.val
    ∧ win6_2.index t (1 : Fin 2) = 0 :=
  (by decide +kernel : ∀ t : Fin grid6.N, _)

variable (V : (c : Dev nD) → (b : Ref sig .tc) → Buf (Elt Ideal) ((c : Thread nD τ).loc b))

/-- What grid point t writes back is block t of the rectified sum of the two input arrays as the call finds them:
    each input's block holds its array's entries at exactly the places the output's block names. -/
theorem written_back6 (c : Dev nD) (t : Fin cfg6.N) :
    (dat6 (F := Ideal) V c).flushed 2 t = ((cfg6.win 2).blk t).view.read (Elt Ideal)
      (Cert.Layer.addRelu (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero origin6]
  simp only [View.ld_unit_zero (S := S2000x128) origin6]
  rw [addRelu_entry6]
  obtain ⟨e0, e1, e2, e3, e4, e5⟩ := block_index6 t
  funext j
  have h0 : ((cfg6.win 0).blk t).view.emb j = ((cfg6.win 2).blk t).view.emb j := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 128 + 1 * (j 1).val = win6_2.index t (1 : Fin 2) * 128 + 1 * (j 1).val; omega
  have h1 : ((cfg6.win 1).blk t).view.emb j = ((cfg6.win 2).blk t).view.emb j := by
    funext a; apply Fin.ext
    match a with
    | ⟨0, _⟩ => show win6_1.index t (0 : Fin 2) * 2000 + 1 * (j 0).val = win6_2.index t (0 : Fin 2) * 2000 + 1 * (j 0).val; omega
    | ⟨1, _⟩ => show win6_1.index t (1 : Fin 2) * 128 + 1 * (j 1).val = win6_2.index t (1 : Fin 2) * 128 + 1 * (j 1).val; omega
  have same_place : ∀ A0 A1 : S50000x128.Idx → EReal,
      max (A0 (((cfg6.win 0).blk t).view.emb j) + A1 (((cfg6.win 1).blk t).view.emb j)) (Ideal.ofBits .f32 0x00000000#32)
        = Cert.Layer.addRelu A0 A1 (((cfg6.win 2).blk t).view.emb j) := fun A0 A1 => by rw [h0, h1]; rfl
  exact same_place (V c (Pipeline.arrRef spec6 0)) (V c (Pipeline.arrRef spec6 1))

/-- An entry of the output array is in point t's block iff each coordinate is in the block's range on its axis. -/
theorem in_block6 (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v153).slice (win6_2.rect t)).set ↔ _
  rw [View.set_slice_whole, Rect.mem_set_unit]
  exact Iff.rfl

/-- The blocks fill the array: row r is in the block of point r / 2000. -/
theorem blocks_fill6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 25 := N_6
  let t : Fin cfg6.N := ⟨(i 0).val / 2000, by rw [hN]; omega⟩
  obtain ⟨e0, e1, e2, e3, e4, e5⟩ := block_index6 t
  have e4' : win6_2.index t (0 : Fin 2) = (i 0).val / 2000 := e4
  refine ⟨t, flush6_2 t, ?_⟩
  rw [in_block6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 128 ≤ (i 1).val ∧ (i 1).val < win6_2.index t (1 : Fin 2) * 128 + 128; omega

/-- THE OUTPUT ARRAY after the call: the rectified sum of the two input arrays as the call finds them. -/
theorem region6 (c : Dev nD) : (dat6 (F := Ideal) V c).arrAt 2 cfg6.N = Cert.Layer.addRelu (V c (Pipeline.arrRef spec6 0)) (V c (Pipeline.arrRef spec6 1)) :=
  (dat6 (F := Ideal) V c).arrAt_eq_of_cover 2 _ (fun t _ => written_back6 V c t) (blocks_fill6)

end Cert.KernelIdeal.RegionValue

end
-- ==== Proof.ChainC.lean ====
/- The third hidden layer, boundary by boundary: its rectified sum is the program's result, and it is the reference's last stage.
-/
import proofs.«175211_j77953656422746_1_alg».proof.Proof.ChainB
import proofs.«175211_j77953656422746_1_alg».proof.Proof.Region5
import proofs.«175211_j77953656422746_1_alg».proof.Proof.Region6
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

variable (hp : Pre m c (W9 m ρ c))
include hp

/-! ## After the host stretch that slices the next layer's weights and bias -/

theorem w19_v122 : W19 m ρ c (Proc.devRef .tc main_v122) = Cert.ReferenceIdeal.Read.val_main_v142 (F := Ideal) (arg m c main_arg6) := by
  dsimp only [W19, hostOps5]; after_results_simp
  rw [w18_arg6 m ρ c hp]
  rfl

theorem w19_v125 : W19 m ρ c (Proc.devRef .tc main_v125) = shapeCast S1x128 (Cert.ReferenceIdeal.Read.val_main_v145 (F := Ideal) (arg m c main_arg7)) shapeCasts_S128_S1x128 := by
  dsimp only [W19, hostOps5]; after_results_simp
  rw [w18_arg7 m ρ c hp]
  rfl

theorem w19_v120 : W19 m ρ c (Proc.devRef .tc main_v120) = Cert.ReferenceIdeal.Read.val_main_v140 (F := Ideal) (arg m c main_arg0) (arg m c main_arg1) (arg m c main_arg2) (arg m c main_arg3) (arg m c main_arg4) (arg m c main_arg5) (arg m c main_arg6) (arg m c main_arg7) := by
  dsimp only [W19, hostOps5]; after_results_simp; exact w18_v120 m ρ c hp
theorem w19_v46 : W19 m ρ c (Proc.devRef .tc main_v46) = Cert.ReferenceIdeal.Read.val_main_v64 (F := Ideal) (arg m c main_arg1) (arg m c main_arg2) (arg m c main_arg3) := by
  dsimp only [W19, hostOps5]; after_results_simp; exact w18_v46 m ρ c hp
theorem w19_v54 : W19 m ρ c (Proc.devRef .tc main_v54) = Cert.ReferenceIdeal.Read.val_main_v86 (F := Ideal) (arg m c main_arg1) (arg m c main_arg2) (arg m c main_arg3) := by
  dsimp only [W19, hostOps5]; after_results_simp; exact w18_v54 m ρ c hp
theorem w19_v1 : W19 m ρ c (Proc.devRef .tc main_v1) = Cert.ReferenceIdeal.Read.val_main_v1 (F := Ideal) (arg m c main_arg1) := by
  dsimp only [W19, hostOps5]; after_results_simp; exact w18_v1 m ρ c hp
theorem w19_v3 : W19 m ρ c (Proc.devRef .tc main_v3) = Cert.ReferenceIdeal.Read.val_main_v3 (F := Ideal) (arg m c main_arg1) := by
  dsimp only [W19, hostOps5]; after_results_simp; exact w18_v3 m ρ c hp

/-! ## After the hidden layer's dense call -/

theorem w20_v126 : W20 m ρ c (Proc.devRef .tc main_v126) = Cert.ReferenceIdeal.Read.val_main_v148 (F := Ideal) (arg m c main_arg0) (arg m c main_arg1) (arg m c main_arg2) (arg m c main_arg3) (arg m c main_arg4) (arg m c main_arg5) (arg m c main_arg6) (arg m c main_arg7) := by
  refine (W20_arr m ρ c 3).trans ?_
  rw [RegionValue.region5 (V19 m ρ) c]
  show Cert.Layer.lin (W19 m ρ c (Proc.devRef .tc main_v120)) (W19 m ρ c (Proc.devRef .tc main_v122)) (fun j => W19 m ρ c (Proc.devRef .tc main_v125) (ix2 (0 : Fin 1) j)) = _
  rw [w19_v120 m ρ c hp, w19_v122 m ρ c hp, w19_v125 m ρ c hp, row_of_reshape]
  unfold Cert.ReferenceIdeal.Read.val_main_v148 Cert.ReferenceIdeal.Read.val_main_v147 Cert.ReferenceIdeal.Read.val_main_v146 Cert.ReferenceIdeal.Read.val_main_v143
  exact (Cert.ReferenceIdeal.HostDense.lin_eq _ _ _).symm

theorem w20_v120 : W20 m ρ c (Proc.devRef .tc main_v120) = Cert.ReferenceIdeal.Read.val_main_v140 (F := Ideal) (arg m c main_arg0) (arg m c main_arg1) (arg m c main_arg2) (arg m c main_arg3) (arg m c main_arg4) (arg m c main_arg5) (arg m c main_arg6) (arg m c main_arg7) :=
  ((W20_arr m ρ c 0).trans (((dat5 (V19 m ρ) c).arrAt_in 0 rfl _).trans (A_eq5 (V19 m ρ) c 0))).trans (w19_v120 m ρ c hp)
theorem w20_v46 : W20 m ρ c (Proc.devRef .tc main_v46) = Cert.ReferenceIdeal.Read.val_main_v64 (F := Ideal) (arg m c main_arg1) (arg m c main_arg2) (arg m c main_arg3) := (W20_of_ne m ρ c main_v46 (by decide)).trans (w19_v46 m ρ c hp)
theorem w20_v54 : W20 m ρ c (Proc.devRef .tc main_v54) = Cert.ReferenceIdeal.Read.val_main_v86 (F := Ideal) (arg m c main_arg1) (arg m c main_arg2) (arg m c main_arg3) := (W20_of_ne m ρ c main_v54 (by decide)).trans (w19_v54 m ρ c hp)
theorem w20_v1 : W20 m ρ c (Proc.devRef .tc main_v1) = Cert.ReferenceIdeal.Read.val_main_v1 (F := Ideal) (arg m c main_arg1) := (W20_of_ne m ρ c main_v1 (by decide)).trans (w19_v1 m ρ c hp)
theorem w20_v3 : W20 m ρ c (Proc.devRef .tc main_v3) = Cert.ReferenceIdeal.Read.val_main_v3 (F := Ideal) (arg m c main_arg1) := (W20_of_ne m ρ c main_v3 (by decide)).trans (w19_v3 m ρ c hp)

/-! ## After the gather / scale / scatter-add stretch: the reference's own operations on equal operands -/

theorem w21_v152 : W21 m ρ c (Proc.devRef .tc main_v152) = Cert.ReferenceIdeal.Read.val_main_v184 (F := Ideal) (arg m c main_arg0) (arg m c main_arg1) (arg m c main_arg2) (arg m c main_arg3) (arg m c main_arg4) (arg m c main_arg5) (arg m c main_arg6) (arg m c main_arg7) := by
  dsimp only [W21, hostOps6]; after_results_simp
  rw [w20_v126 m ρ c hp, w20_v1 m ρ c hp, w20_v3 m ρ c hp, w20_v46 m ρ c hp, w20_v54 m ρ c hp]
  rfl

theorem w21_v120 : W21 m ρ c (Proc.devRef .tc main_v120) = Cert.ReferenceIdeal.Read.val_main_v140 (F := Ideal) (arg m c main_arg0) (arg m c main_arg1) (arg m c main_arg2) (arg m c main_arg3) (arg m c main_arg4) (arg m c main_arg5) (arg m c main_arg6) (arg m c main_arg7) := by
  dsimp only [W21, hostOps6]; after_results_simp; exact w20_v120 m ρ c hp
theorem w21_v46 : W21 m ρ c (Proc.devRef .tc main_v46) = Cert.ReferenceIdeal.Read.val_main_v64 (F := Ideal) (arg m c main_arg1) (arg m c main_arg2) (arg m c main_arg3) := by
  dsimp only [W21, hostOps6]; after_results_simp; exact w20_v46 m ρ c hp
theorem w21_v54 : W21 m ρ c (Proc.devRef .tc main_v54) = Cert.ReferenceIdeal.Read.val_main_v86 (F := Ideal) (arg m c main_arg1) (arg m c main_arg2) (arg m c main_arg3) := by
  dsimp only [W21, hostOps6]; after_results_simp; exact w20_v54 m ρ c hp
theorem w21_v1 : W21 m ρ c (Proc.devRef .tc main_v1) = Cert.ReferenceIdeal.Read.val_main_v1 (F := Ideal) (arg m c main_arg1) := by
  dsimp only [W21, hostOps6]; after_results_simp; exact w20_v1 m ρ c hp
theorem w21_v3 : W21 m ρ c (Proc.devRef .tc main_v3) = Cert.ReferenceIdeal.Read.val_main_v3 (F := Ideal) (arg m c main_arg1) := by
  dsimp only [W21, hostOps6]; after_results_simp; exact w20_v3 m ρ c hp

/-! ## After the rectified sum: the activations after this layer -/

theorem w22_v153 : W22 m ρ c (Proc.devRef .tc main_v153) = Cert.ReferenceIdeal.Read.val_main_v186 (F := Ideal) (arg m c main_arg0) (arg m c main_arg1) (arg m c main_arg2) (arg m c main_arg3) (arg m c main_arg4) (arg m c main_arg5) (arg m c main_arg6) (arg m c main_arg7) := by
  refine (W22_arr m ρ c 2).trans ?_
  rw [RegionValue.region6 (V21 m ρ) c]
  show Cert.Layer.addRelu (W21 m ρ c (Proc.devRef .tc main_v120)) (W21 m ρ c (Proc.devRef .tc main_v152)) = _
  rw [w21_v120 m ρ c hp, w21_v152 m ρ c hp]
  unfold Cert.ReferenceIdeal.Read.val_main_v186 Cert.ReferenceIdeal.Read.val_main_v185 Cert.ReferenceIdeal.Read.val_main_call7_v0 Cert.ReferenceIdeal.Read.val_main_call7_cst
  exact (Cert.ReferenceIdeal.HostDense.addRelu_eq _ _).symm

theorem w22_v46 : W22 m ρ c (Proc.devRef .tc main_v46) = Cert.ReferenceIdeal.Read.val_main_v64 (F := Ideal) (arg m c main_arg1) (arg m c main_arg2) (arg m c main_arg3) := (W22_of_ne m ρ c main_v46 (by decide)).trans (w21_v46 m ρ c hp)
theorem w22_v54 : W22 m ρ c (Proc.devRef .tc main_v54) = Cert.ReferenceIdeal.Read.val_main_v86 (F := Ideal) (arg m c main_arg1) (arg m c main_arg2) (arg m c main_arg3) := (W22_of_ne m ρ c main_v54 (by decide)).trans (w21_v54 m ρ c hp)
theorem w22_v1 : W22 m ρ c (Proc.devRef .tc main_v1) = Cert.ReferenceIdeal.Read.val_main_v1 (F := Ideal) (arg m c main_arg1) := (W22_of_ne m ρ c main_v1 (by decide)).trans (w21_v1 m ρ c hp)
theorem w22_v3 : W22 m ρ c (Proc.devRef .tc main_v3) = Cert.ReferenceIdeal.Read.val_main_v3 (F := Ideal) (arg m c main_arg1) := (W22_of_ne m ρ c main_v3 (by decide)).trans (w21_v3 m ρ c hp)

end Cert.KernelIdeal.Chain

end
-- ==== Proof.lean ====
/-
  The proof of the certificate's claim for a three-layer hypergraph convolution whose dense parts run as seven pallas_calls
  (an input layer, then per layer a dense call and a rectified sum) among host stretches that do the degree normalisation
  and the gather / scale / scatter-add steps.

  The three frames are the generated ones (the reference's is its generated run with the result dropped); the idealization
  rewrote nothing. The value claim: the kernel program's run, with its result named (RunValue), ends at the fold of its
  segments at the result buffer; that fold is followed boundary by boundary (ChainPre, ChainA, ChainB, ChainC): every host
  stretch is the reference's own operations on operands already known equal — except one product of three per-incidence
  factors, which the two programs associate differently —, every dense call is the reference's dot_general + bias
  (+ maximum) by the dense-layer lemmas (a matrix product into a zero accumulator and a dot_general are one sum over the
  contracted axis; rounding an operand to bf16 is the identity on extended reals; the blocks of 2000 rows tile the array),
  and every rectified sum is the reference's maximum of the sum with zero. So the result array is the reference's last
  stage of the argument arrays, and the reference's generated run ends there too. No law used needs finite inputs.
-/
import proofs.«175211_j77953656422746_1_alg».proof.Defs
import proofs.«175211_j77953656422746_1_alg».proof.Proof.Gen.Kernel
import proofs.«175211_j77953656422746_1_alg».proof.Proof.Gen.Kernel.Skeleton
import proofs.«175211_j77953656422746_1_alg».proof.Proof.Gen.Kernel.Launch
import proofs.«175211_j77953656422746_1_alg».proof.Proof.Gen.Kernel.Points
import proofs.«175211_j77953656422746_1_alg».proof.Proof.Gen.Kernel.Frame
import proofs.«175211_j77953656422746_1_alg».proof.Proof.Gen.KernelIdeal
import proofs.«175211_j77953656422746_1_alg».proof.Proof.Gen.KernelIdeal.Skeleton
import proofs.«175211_j77953656422746_1_alg».proof.Proof.Gen.KernelIdeal.Launch
import proofs.«175211_j77953656422746_1_alg».proof.Proof.Gen.KernelIdeal.Points
import proofs.«175211_j77953656422746_1_alg».proof.Proof.Gen.KernelIdeal.Frame
import proofs.«175211_j77953656422746_1_alg».proof.Proof.Gen.ReferenceIdeal
import proofs.«175211_j77953656422746_1_alg».proof.Proof.Gen.Pre_finite_inputs
import proofs.«175211_j77953656422746_1_alg».proof.Proof.Gen.ReferenceIdeal.Run
import proofs.«175211_j77953656422746_1_alg».proof.Proof.Gen.ReferenceIdeal.Read
import proofs.«175211_j77953656422746_1_alg».proof.Proof.RunValue
import proofs.«175211_j77953656422746_1_alg».proof.Proof.ChainPre
import proofs.«175211_j77953656422746_1_alg».proof.Proof.ChainC
import Idealize.ShloMosaic.Adequacy
import Idealize.ShloMosaic.Init

noncomputable section

namespace Cert.Proof

open Idealize.ShloMosaic Idealize.ShloMosaic.TcCoe Idealize.SL.Sem

section KernelValue

open Cert.KernelIdeal Cert.KernelIdeal.Gen Cert.KernelIdeal.Chain

variable (m : (ℓ : Loc nD τ sig) → Buf (Elt Ideal) ℓ) (ρ : Dev nD → PrngReg)

/-- What the first pallas_call finds: the arguments as launched and the shared preamble at the reference's stages. -/
theorem entry (c : Dev nD) : Pre m c (W9 m ρ c) :=
  ⟨pre_arg0 m ρ c, pre_arg1 m ρ c, pre_arg2 m ρ c, pre_arg3 m ρ c, pre_arg4 m ρ c, pre_arg5 m ρ c, pre_arg6 m ρ c, pre_arg7 m ρ c,
    pre_v1 m ρ c, pre_v3 m ρ c, pre_v43 m ρ c, pre_v44 m ρ c⟩

/-- The idealized kernel's run ends with its result array at the reference's last stage of the argument arrays, the arguments
    unchanged. -/
theorem kernel_run : θ_run defs (onTc (τ := τ) (main (F := Ideal))) ⟨m, fun _ => 0, ρ⟩ (fun r => ∀ c : Dev nD,
      r.2.mem ((c.tc : Thread nD τ).loc main_v153) = Cert.ReferenceIdeal.Read.val_main_v186 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (w22_v153 m ρ c (entry m ρ c)), (h c).2⟩)
    (Cert.KernelIdeal.RunValue.run_result m ρ)

end KernelValue

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the reference's last stage of argument arrays that agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v186_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
